-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x2 : Shape := ⟨2, ![50000, 2]⟩
abbrev S5000x2 : Shape := ⟨2, ![5000, 2]⟩
abbrev S850000x2 : Shape := ⟨2, ![850000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 101
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x1, .f32⟩
  | .hbm, ⟨74, _⟩ => ⟨S850000x128, .f32⟩
  | .hbm, ⟨75, _⟩ => ⟨S850000x128, .f32⟩
  | .hbm, ⟨76, _⟩ => ⟨S_, .f32⟩
  | .hbm, ⟨77, _⟩ => ⟨S50000x128, .f32⟩
  | .hbm, ⟨78, _⟩ => ⟨S850000x1, .i32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x2, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x2, .f32⟩
  | .hbm, ⟨92, _⟩ => ⟨S850000x1, .f32⟩
  | .hbm, ⟨93, _⟩ => ⟨S850000x2, .f32⟩
  | .hbm, ⟨94, _⟩ => ⟨S850000x2, .f32⟩
  | .hbm, ⟨95, _⟩ => ⟨S_, .f32⟩
  | .hbm, ⟨96, _⟩ => ⟨S50000x2, .f32⟩
  | .hbm, ⟨97, _⟩ => ⟨S850000x1, .i32⟩
  | .hbm, ⟨98, _⟩ => ⟨S50000x2, .f32⟩
  | .hbm, ⟨99, _⟩ => ⟨S1x2, .f32⟩
  | .hbm, ⟨100, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x2, .f32⟩
  | .local _ .vmem, ⟨23, _⟩ => ⟨S5000x2, .f32⟩
  | .local _ .vmem, ⟨24, _⟩ => ⟨S5000x2, .f32⟩
  | .local _ .vmem, ⟨25, _⟩ => ⟨S5000x2, .f32⟩
  | .local _ .vmem, ⟨26, _⟩ => ⟨S5000x2, .f32⟩
  | .local _ .vmem, ⟨27, _⟩ => ⟨S1x2, .f32⟩
  | .local _ .vmem, ⟨28, _⟩ => ⟨S5000x2, .f32⟩
  | .local _ .vmem, ⟨29, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x2_S5000x2_1_0_0_1_n_n_wf : DotDims.WF S5000x128 S128x2 S5000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S50000x2.size a
  hwx4_2 : ∀ i : grid4.Coords, EltTy.bits .f32 = 32 ∨ (Rect.block (s := S50000x2) S5000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S50000x2.size a
  hwx5_0 : ∀ i : grid5.Coords, EltTy.bits .f32 = 32 ∨ (Rect.block (s := S50000x2) S5000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x2.size a ≤ S50000x2.size a
  hwx5_2 : ∀ i : grid5.Coords, EltTy.bits .f32 = 32 ∨ (Rect.block (s := S50000x2) S5000x2.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x2 : Shape := ⟨2, ![50000, 2]⟩
abbrev S850000x2 : Shape := ⟨2, ![850000, 2]⟩
abbrev S1x2 : Shape := ⟨2, ![1, 2]⟩
abbrev S50000x1 : Shape := ⟨2, ![50000, 1]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x2, .f32⟩
  | 7 => ⟨S2, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x128, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x128, .f32⟩
  | 54 => ⟨S850000x1, .f32⟩
  | 55 => ⟨S850000x128, .f32⟩
  | 56 => ⟨S850000x128, .f32⟩
  | 57 => ⟨S_, .f32⟩
  | 58 => ⟨S50000x128, .f32⟩
  | 59 => ⟨S850000x1, .i32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S_, .f32⟩
  | 69 => ⟨S850000, .f32⟩
  | 70 => ⟨S_, .f32⟩
  | 71 => ⟨S50000, .f32⟩
  | 72 => ⟨S850000x1, .i32⟩
  | 73 => ⟨S50000, .f32⟩
  | 74 => ⟨S_, .f32⟩
  | 75 => ⟨S50000, .f32⟩
  | 76 => ⟨S50000, .f32⟩
  | 77 => ⟨S50000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x1, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x2, .f32⟩
  | 120 => ⟨S_, .f32⟩
  | 121 => ⟨S850000, .f32⟩
  | 122 => ⟨S_, .f32⟩
  | 123 => ⟨S50000, .f32⟩
  | 124 => ⟨S850000x1, .i32⟩
  | 125 => ⟨S50000, .f32⟩
  | 126 => ⟨S_, .f32⟩
  | 127 => ⟨S50000, .f32⟩
  | _ => ⟨S50000x128, .f32⟩

abbrev hbmTy0_1 (i : Nat) : BufTy := match i % 128 with
  | 0 => ⟨S50000, .f32⟩
  | 1 => ⟨S50000, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000, .f32⟩
  | 20 => ⟨S850000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x2, .f32⟩
  | 30 => ⟨S850000x1, .f32⟩
  | 31 => ⟨S850000x2, .f32⟩
  | 32 => ⟨S850000x2, .f32⟩
  | 33 => ⟨S_, .f32⟩
  | 34 => ⟨S50000x2, .f32⟩
  | 35 => ⟨S850000x1, .i32⟩
  | 36 => ⟨S50000x2, .f32⟩
  | 37 => ⟨S1x2, .f32⟩
  | 38 => ⟨S50000x2, .f32⟩
  | 39 => ⟨S50000x2, .f32⟩
  | 40 => ⟨S_, .f32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x2, .f32⟩
  | 47 => ⟨S50000x2, .f32⟩
  | 48 => ⟨S50000x2, .f32⟩
  | 49 => ⟨S_, .f32⟩
  | 50 => ⟨S50000, .f32⟩
  | 51 => ⟨S50000x1, .f32⟩
  | 52 => ⟨S50000x1, .f32⟩
  | 53 => ⟨S50000x2, .f32⟩
  | 54 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_cst_18 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_21 : Ref sig .tc := ⟨.hbm, 130, rfl⟩
abbrev main_v95 : Ref sig .tc := ⟨.hbm, 131, rfl⟩
abbrev main_v96 : Ref sig .tc := ⟨.hbm, 132, rfl⟩
abbrev main_c_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_23 : Ref sig .tc := ⟨.hbm, 139, rfl⟩
abbrev main_v102 : Ref sig .tc := ⟨.hbm, 140, rfl⟩
abbrev main_v103 : Ref sig .tc := ⟨.hbm, 141, rfl⟩
abbrev main_c_24 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_25 : Ref sig .tc := ⟨.hbm, 149, rfl⟩
abbrev main_v110 : Ref sig .tc := ⟨.hbm, 150, rfl⟩
abbrev main_v111 : Ref sig .tc := ⟨.hbm, 151, rfl⟩
abbrev main_c_26 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_27 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_call2_cst : Ref sig .tc := ⟨.hbm, 168, rfl⟩
abbrev main_call2_v0 : Ref sig .tc := ⟨.hbm, 169, rfl⟩
abbrev main_call2_cst_0 : Ref sig .tc := ⟨.hbm, 170, rfl⟩
abbrev main_call2_v1 : Ref sig .tc := ⟨.hbm, 171, rfl⟩
abbrev main_call2_v2 : Ref sig .tc := ⟨.hbm, 172, rfl⟩
abbrev main_call2_v3 : Ref sig .tc := ⟨.hbm, 173, rfl⟩
abbrev main_call2_v4 : Ref sig .tc := ⟨.hbm, 174, rfl⟩
abbrev main_call2_v5 : Ref sig .tc := ⟨.hbm, 175, rfl⟩
abbrev main_call2_v6 : Ref sig .tc := ⟨.hbm, 176, rfl⟩
abbrev main_call2_cst_1 : Ref sig .tc := ⟨.hbm, 177, rfl⟩
abbrev main_call2_v7 : Ref sig .tc := ⟨.hbm, 178, rfl⟩
abbrev main_call2_v8 : Ref sig .tc := ⟨.hbm, 179, rfl⟩
abbrev main_call2_v9 : Ref sig .tc := ⟨.hbm, 180, rfl⟩
abbrev main_call2_v10 : Ref sig .tc := ⟨.hbm, 181, rfl⟩
abbrev main_v126 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x2_S50000x2_1_0_0_1_n_n_wf : DotDims.WF S50000x128 S128x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.KernelRun.lean ====
/-
  The idealized kernel's run with its result named.

  The program is ten segments: four stretches of host operations and six pipelined calls.  The contents of every
  buffer at each segment boundary are a fold from the launch memory (`W0` … `W10`), and the run ends with every
  unscoped buffer at the last boundary's contents.  Here that is read at the result buffer as well as at the eight
  arguments: the result array ends holding `W10` at the result's reference, the arguments end as launched.
-/
import proofs.«172482_j78709570666802_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched. -/
theorem run_named : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.Spec.lean ====
/-
  The three dense stages of a graph-convolution layer as functions of whole arrays, on the extended reals.

  `mm X W` is the matrix product: entry `(r, c)` is the sum over `j` of `X (r, j) · W (j, c)`.
  `biasRelu A β` adds the row vector `β` to every row of `A` and clips below at `0`.
  `biasLogSoftmax A β` adds `β` to every row and takes the logarithm of the row's softmax in the shifted form:
  with `z = A (r, ·) + β` and `M = max z`, entry `(r, c)` is `(z c − M) − log (Σ q, exp (z q − M))`.
-/
import Idealize.ShloMosaic.Lib.ValueIdx
import Idealize.ShloMosaic.PureOps.Ideal

noncomputable section

namespace Cert.Spec

open Idealize.ShloMosaic Idealize.ShloMosaic.ValueIdx

/-- The matrix product of an `[n, k]` array with a `[k, b]` array. -/
def mm {n k b : ℕ} (X : (⟨2, ![n, k]⟩ : Shape).Idx → EReal) (W : (⟨2, ![k, b]⟩ : Shape).Idx → EReal) :
    (⟨2, ![n, b]⟩ : Shape).Idx → EReal :=
  fun i => ∑ j : Fin k, X (ix2 (⟨(i 0).val, (i 0).isLt⟩ : Fin n) j) * W (ix2 j (⟨(i 1).val, (i 1).isLt⟩ : Fin b))

/-- A row vector added to every row, then the maximum with `0`. -/
def biasRelu {n b : ℕ} (A : (⟨2, ![n, b]⟩ : Shape).Idx → EReal) (β : (⟨1, ![b]⟩ : Shape).Idx → EReal) :
    (⟨2, ![n, b]⟩ : Shape).Idx → EReal :=
  fun i => max (A i + β (ix1 (⟨(i 1).val, (i 1).isLt⟩ : Fin b))) 0

/-- Row `r` of `A` with the row vector `β` added. -/
def biased {n b : ℕ} (A : (⟨2, ![n, b]⟩ : Shape).Idx → EReal) (β : (⟨1, ![b]⟩ : Shape).Idx → EReal) (r : Fin n) (q : Fin b) : EReal :=
  A (ix2 r q) + β (ix1 q)

/-- The largest entry of a biased row (the fold of `max` from `⊥`). -/
def rowMax {n b : ℕ} (A : (⟨2, ![n, b]⟩ : Shape).Idx → EReal) (β : (⟨1, ![b]⟩ : Shape).Idx → EReal) (r : Fin n) : EReal :=
  (Finset.univ : Finset (Fin b)).fold max ⊥ (biased A β r)

/-- A row vector added to every row, then the logarithm of the row's softmax, shifted by the row's maximum. -/
def biasLogSoftmax {n b : ℕ} (A : (⟨2, ![n, b]⟩ : Shape).Idx → EReal) (β : (⟨1, ![b]⟩ : Shape).Idx → EReal) :
    (⟨2, ![n, b]⟩ : Shape).Idx → EReal :=
  fun i =>
    let r : Fin n := ⟨(i 0).val, (i 0).isLt⟩
    let c : Fin b := ⟨(i 1).val, (i 1).isLt⟩
    (biased A β r c - rowMax A β r) - Ideal.log (∑ q : Fin b, Ideal.exp (biased A β r q - rowMax A β r))

end Cert.Spec

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.Product0.lean ====
/-
  The first layer's feature transform: the pipelined call's result array is the matrix product of its two operands.

  The call walks ten grid points; point `t` reads rows `5000·t … 5000·t + 4999` of its left operand and the whole
  right operand, and writes the same rows of its result.  The body multiplies the row block by the right operand on
  the matrix unit into a zero accumulator (its narrowing of both operands to bfloat16 is the identity on the extended
  reals), so each entry of the block is the sum over `j` of `left (row, j) · right (j, column)` — the matrix product
  read at the block's rows.  The ten blocks tile the rows, so the result array ends holding the whole product.
-/
import proofs.«172482_j78709570666802_1_alg».proof.Proof.Gen.KernelIdeal.Frame
import proofs.«172482_j78709570666802_1_alg».proof.Proof.Spec
import proofs.«172482_j78709570666802_1_alg».proof.Proof.LibPlainDot
import Idealize.ShloMosaic.Lib.Pipeline.Value
import Idealize.ShloMosaic.Lib.ValueIdx

set_option maxRecDepth 16384

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-buffer rectangle are all zero. -/
theorem zero_offsets : (![0, 0] : Fin 2 → Nat) = fun _ => 0 := funext fun a => by fin_cases a <;> rfl

/-! ## The dimension record contracts the left operand's columns with the right operand's rows -/

theorem left_row (i : S5000x128.Idx) (q : (dot_S5000x128_S128x128_S5000x128_1_0_0_1_n_n).contr.Idx) : ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem left_col (i : S5000x128.Idx) (q : (dot_S5000x128_S128x128_S5000x128_1_0_0_1_n_n).contr.Idx) : ((dot_S5000x128_S128x128_S5000x128_1_0_0_1_n_n).lhsIdx i q 1).val = (q ⟨0, by decide⟩).val :=
  (dot_S5000x128_S128x128_S5000x128_1_0_0_1_n_n).lhsIdx_val_of_single rfl i q
theorem right_row (i : S5000x128.Idx) (q : (dot_S5000x128_S128x128_S5000x128_1_0_0_1_n_n).contr.Idx) : ((dot_S5000x128_S128x128_S5000x128_1_0_0_1_n_n).rhsIdx i q 0).val = (q ⟨0, by decide⟩).val :=
  (dot_S5000x128_S128x128_S5000x128_1_0_0_1_n_n).rhsIdx_val_of_single rfl i q
theorem right_col (i : S5000x128.Idx) (q : (dot_S5000x128_S128x128_S5000x128_1_0_0_1_n_n).contr.Idx) : ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-! ## The body's stored value at an entry -/

/-- Entry `(p, q)` of the stored block is the sum over `j` of `left (p, j) · right (j, q)`. -/
theorem stored_apply (x0 : Vec Ideal S5000x128 .f32) (x1 : Vec Ideal S128x128 .f32) (p : Fin 5000) (q : Fin 128) :
    k0_pay1 x0 x1 (ix2 p q) = ∑ j : Fin 128, x0 (ix2 p j) * x1 (ix2 j q) := by
  unfold k0_pay1
  exact PlainDot.matmul_zero_apply (a := 5000) (k := 128) (b := 128) (dot_S5000x128_S128x128_S5000x128_1_0_0_1_n_n) none rfl rfl left_row left_col right_row right_col
    (truncf .bf16 x0 bitsLt_bf16_f32) (truncf .bf16 x1 bitsLt_bf16_f32) p q

/-- A block entry against the whole product: when the block's row `j 0` is the array's row `i 0`, the columns agree
    and the right operands are the same array, the stored entry is the product's entry. -/
theorem stored_eq_product (X : (⟨2, ![50000, 128]⟩ : Shape).Idx → EReal) (Wt : (⟨2, ![128, 128]⟩ : Shape).Idx → EReal)
    (x0 : Vec Ideal S5000x128 .f32) (x1 : Vec Ideal S128x128 .f32) (j : S5000x128.Idx) (i : (⟨2, ![50000, 128]⟩ : Shape).Idx)
    (hrow : ∀ k : Fin 128, x0 (ix2 (⟨(j 0).val, (j 0).isLt⟩ : Fin 5000) k) = X (ix2 (⟨(i 0).val, (i 0).isLt⟩ : Fin 50000) k))
    (hcol : (i 1).val = (j 1).val) (hw : x1 = Wt) :
    k0_pay1 x0 x1 j = Spec.mm X Wt i := by
  subst hw
  have hj : j = ix2 (⟨(j 0).val, (j 0).isLt⟩ : Fin 5000) (⟨(j 1).val, (j 1).isLt⟩ : Fin 128) := eq_ix2 j
  rw [hj, stored_apply]
  unfold Spec.mm
  refine Finset.sum_congr rfl fun k _ => ?_
  rw [hrow k]
  refine congrArg (fun z => X (ix2 (⟨(i 0).val, (i 0).isLt⟩ : Fin 50000) k) * x1 z) ?_
  exact congrArg (ix2 k) (Fin.ext hcol.symm)

/-! ## From the blocks to the array -/

section
variable (V : (c : Dev nD) → (b : Ref sig .tc) → Buf (Elt Ideal) ((c : Thread nD τ).loc b))

/-- The printed index maps over the grid: the left operand's block and the result's block sit at the same row block,
    the right operand's block is the whole array, and there are ten row blocks. -/
theorem index_maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the two arrays the call reads. -/
theorem flushed_eq (c : Dev nD) (t : Fin cfg0.N) :
    (dat0 V c).flushed 2 t = ((cfg0.win 2).blk t).view.read (Elt Ideal) (Spec.mm (n := 50000) (k := 128) (b := 128) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_maps t
  funext j
  refine stored_eq_product (V c main_arg0) (V c main_arg2) (iblk0 V c 0 t) (iblk0 V c 1 t) j (((cfg0.win 2).blk t).view.emb j) (fun k => ?_) ?_ ?_
  · show V c main_arg0 (((cfg0.win 0).blk t).view.emb (ix2 (⟨(j 0).val, (j 0).isLt⟩ : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; rw [e0]
    | ⟨1, _⟩ => show win0_0.index t (1 : Fin 2) * 128 + 1 * k.val = k.val; rw [e1]; omega
  · show win0_2.index t (1 : Fin 2) * 128 + 1 * (j 1).val = (j 1).val
    rw [e4]; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; rw [e2]; omega
    | ⟨1, _⟩ => show win0_1.index t (1 : Fin 2) * 128 + 1 * (y 1).val = (y 1).val; rw [e3]; omega

/-- An index of the result array is in point `t`'s block iff each coordinate is in the block's range on its axis. -/
theorem mem_block (t : Fin cfg0.N) (i : (⟨2, ![50000, 128]⟩ : Shape).Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- The ten blocks cover the result array: row `r` lies in the block of point `r / 5000`. -/
theorem covered (i : (⟨2, ![50000, 128]⟩ : Shape).Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the call is the product of the two arrays the call reads. -/
theorem final (c : Dev nD) : (dat0 V c).arrAt 2 cfg0.N = Spec.mm (n := 50000) (k := 128) (b := 128) (V c main_arg0) (V c main_arg2) :=
  (dat0 V c).arrAt_eq_of_cover 2 _ (fun t _ => flushed_eq V c t) (covered)

end

end Cert.KernelIdeal.Product0

end
-- ==== Proof.Product2.lean ====
/-
  The second layer's feature transform: the pipelined call's result array is the matrix product of its two operands.

  The call walks ten grid points; point `t` reads rows `5000·t … 5000·t + 4999` of its left operand and the whole
  right operand, and writes the same rows of its result.  The body multiplies the row block by the right operand on
  the matrix unit into a zero accumulator (its narrowing of both operands to bfloat16 is the identity on the extended
  reals), so each entry of the block is the sum over `j` of `left (row, j) · right (j, column)` — the matrix product
  read at the block's rows.  The ten blocks tile the rows, so the result array ends holding the whole product.
-/
import proofs.«172482_j78709570666802_1_alg».proof.Proof.Gen.KernelIdeal.Frame
import proofs.«172482_j78709570666802_1_alg».proof.Proof.Spec
import proofs.«172482_j78709570666802_1_alg».proof.Proof.LibPlainDot
import Idealize.ShloMosaic.Lib.Pipeline.Value
import Idealize.ShloMosaic.Lib.ValueIdx

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-buffer rectangle are all zero. -/
theorem zero_offsets : (![0, 0] : Fin 2 → Nat) = fun _ => 0 := funext fun a => by fin_cases a <;> rfl

/-! ## The dimension record contracts the left operand's columns with the right operand's rows -/

theorem left_row (i : S5000x128.Idx) (q : (dot_S5000x128_S128x128_S5000x128_1_0_0_1_n_n).contr.Idx) : ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem left_col (i : S5000x128.Idx) (q : (dot_S5000x128_S128x128_S5000x128_1_0_0_1_n_n).contr.Idx) : ((dot_S5000x128_S128x128_S5000x128_1_0_0_1_n_n).lhsIdx i q 1).val = (q ⟨0, by decide⟩).val :=
  (dot_S5000x128_S128x128_S5000x128_1_0_0_1_n_n).lhsIdx_val_of_single rfl i q
theorem right_row (i : S5000x128.Idx) (q : (dot_S5000x128_S128x128_S5000x128_1_0_0_1_n_n).contr.Idx) : ((dot_S5000x128_S128x128_S5000x128_1_0_0_1_n_n).rhsIdx i q 0).val = (q ⟨0, by decide⟩).val :=
  (dot_S5000x128_S128x128_S5000x128_1_0_0_1_n_n).rhsIdx_val_of_single rfl i q
theorem right_col (i : S5000x128.Idx) (q : (dot_S5000x128_S128x128_S5000x128_1_0_0_1_n_n).contr.Idx) : ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-! ## The body's stored value at an entry -/

/-- Entry `(p, q)` of the stored block is the sum over `j` of `left (p, j) · right (j, q)`. -/
theorem stored_apply (x0 : Vec Ideal S5000x128 .f32) (x1 : Vec Ideal S128x128 .f32) (p : Fin 5000) (q : Fin 128) :
    k2_pay1 x0 x1 (ix2 p q) = ∑ j : Fin 128, x0 (ix2 p j) * x1 (ix2 j q) := by
  unfold k2_pay1
  refine (PlainDot.matmul_zero_apply (a := 5000) (k := 128) (b := 128) (dot_S5000x128_S128x128_S5000x128_1_0_0_1_n_n) none rfl rfl left_row left_col right_row right_col
    (truncf .bf16 (shapeCast S5000x128 x0 shapeCasts_S5000x128_S5000x128) bitsLt_bf16_f32) (truncf .bf16 x1 bitsLt_bf16_f32) p q).trans ?_
  refine Finset.sum_congr rfl fun j _ => ?_
  show (shapeCast S5000x128 x0 shapeCasts_S5000x128_S5000x128) (ix2 p j) * x1 (ix2 j q) = _
  rw [shapeCast_self]

/-- A block entry against the whole product: when the block's row `j 0` is the array's row `i 0`, the columns agree
    and the right operands are the same array, the stored entry is the product's entry. -/
theorem stored_eq_product (X : (⟨2, ![50000, 128]⟩ : Shape).Idx → EReal) (Wt : (⟨2, ![128, 128]⟩ : Shape).Idx → EReal)
    (x0 : Vec Ideal S5000x128 .f32) (x1 : Vec Ideal S128x128 .f32) (j : S5000x128.Idx) (i : (⟨2, ![50000, 128]⟩ : Shape).Idx)
    (hrow : ∀ k : Fin 128, x0 (ix2 (⟨(j 0).val, (j 0).isLt⟩ : Fin 5000) k) = X (ix2 (⟨(i 0).val, (i 0).isLt⟩ : Fin 50000) k))
    (hcol : (i 1).val = (j 1).val) (hw : x1 = Wt) :
    k2_pay1 x0 x1 j = Spec.mm X Wt i := by
  subst hw
  have hj : j = ix2 (⟨(j 0).val, (j 0).isLt⟩ : Fin 5000) (⟨(j 1).val, (j 1).isLt⟩ : Fin 128) := eq_ix2 j
  rw [hj, stored_apply]
  unfold Spec.mm
  refine Finset.sum_congr rfl fun k _ => ?_
  rw [hrow k]
  refine congrArg (fun z => X (ix2 (⟨(i 0).val, (i 0).isLt⟩ : Fin 50000) k) * x1 z) ?_
  exact congrArg (ix2 k) (Fin.ext hcol.symm)

/-! ## From the blocks to the array -/

section
variable (V : (c : Dev nD) → (b : Ref sig .tc) → Buf (Elt Ideal) ((c : Thread nD τ).loc b))

/-- The printed index maps over the grid: the left operand's block and the result's block sit at the same row block,
    the right operand's block is the whole array, and there are ten row blocks. -/
theorem index_maps : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the product of the two arrays the call reads. -/
theorem flushed_eq (c : Dev nD) (t : Fin cfg2.N) :
    (dat2 V c).flushed 2 t = ((cfg2.win 2).blk t).view.read (Elt Ideal) (Spec.mm (n := 50000) (k := 128) (b := 128) (V c main_v44) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := index_maps t
  funext j
  refine stored_eq_product (V c main_v44) (V c main_arg4) (iblk2 V c 0 t) (iblk2 V c 1 t) j (((cfg2.win 2).blk t).view.emb j) (fun k => ?_) ?_ ?_
  · show V c main_v44 (((cfg2.win 0).blk t).view.emb (ix2 (⟨(j 0).val, (j 0).isLt⟩ : Fin 5000) k)) = _
    refine congrArg (V c main_v44) (funext fun a => Fin.ext ?_)
    match a with
    | ⟨0, _⟩ => show win2_0.index t (0 : Fin 2) * 5000 + 1 * (j 0).val = win2_2.index t (0 : Fin 2) * 5000 + 1 * (j 0).val; rw [e0]
    | ⟨1, _⟩ => show win2_0.index t (1 : Fin 2) * 128 + 1 * k.val = k.val; rw [e1]; omega
  · show win2_2.index t (1 : Fin 2) * 128 + 1 * (j 1).val = (j 1).val
    rw [e4]; omega
  · funext y
    show V c main_arg4 (((cfg2.win 1).blk t).view.emb y) = V c main_arg4 y
    refine congrArg (V c main_arg4) (funext fun a => Fin.ext ?_)
    match a with
    | ⟨0, _⟩ => show win2_1.index t (0 : Fin 2) * 128 + 1 * (y 0).val = (y 0).val; rw [e2]; omega
    | ⟨1, _⟩ => show win2_1.index t (1 : Fin 2) * 128 + 1 * (y 1).val = (y 1).val; rw [e3]; omega

/-- An index of the result array is in point `t`'s block iff each coordinate is in the block's range on its axis. -/
theorem mem_block (t : Fin cfg2.N) (i : (⟨2, ![50000, 128]⟩ : Shape).Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- The ten blocks cover the result array: row `r` lies in the block of point `r / 5000`. -/
theorem covered (i : (⟨2, ![50000, 128]⟩ : Shape).Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the call is the product of the two arrays the call reads. -/
theorem final (c : Dev nD) : (dat2 V c).arrAt 2 cfg2.N = Spec.mm (n := 50000) (k := 128) (b := 128) (V c main_v44) (V c main_arg4) :=
  (dat2 V c).arrAt_eq_of_cover 2 _ (fun t _ => flushed_eq V c t) (covered)

end

end Cert.KernelIdeal.Product2

end
-- ==== Proof.Product4.lean ====
/-
  The last layer's feature transform: the pipelined call's result array is the matrix product of its two operands.

  The call walks ten grid points; point `t` reads rows `5000·t … 5000·t + 4999` of its left operand and the whole
  right operand, and writes the same rows of its result.  The body multiplies the row block by the right operand on
  the matrix unit into a zero accumulator (its narrowing of both operands to bfloat16 is the identity on the extended
  reals), so each entry of the block is the sum over `j` of `left (row, j) · right (j, column)` — the matrix product
  read at the block's rows.  The ten blocks tile the rows, so the result array ends holding the whole product.
-/
import proofs.«172482_j78709570666802_1_alg».proof.Proof.Gen.KernelIdeal.Frame
import proofs.«172482_j78709570666802_1_alg».proof.Proof.Spec
import proofs.«172482_j78709570666802_1_alg».proof.Proof.LibPlainDot
import Idealize.ShloMosaic.Lib.Pipeline.Value
import Idealize.ShloMosaic.Lib.ValueIdx

set_option maxRecDepth 16384

noncomputable section

namespace Cert.KernelIdeal.Product4

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-buffer rectangle are all zero. -/
theorem zero_offsets : (![0, 0] : Fin 2 → Nat) = fun _ => 0 := funext fun a => by fin_cases a <;> rfl

/-! ## The dimension record contracts the left operand's columns with the right operand's rows -/

theorem left_row (i : S5000x2.Idx) (q : (dot_S5000x128_S128x2_S5000x2_1_0_0_1_n_n).contr.Idx) : ((dot_S5000x128_S128x2_S5000x2_1_0_0_1_n_n).lhsIdx i q 0).val = (i 0).val := by
  unfold DotDims.lhsIdx
  rw [dif_neg (show ¬(0 : Fin S5000x128.rank) ∈ (dot_S5000x128_S128x2_S5000x2_1_0_0_1_n_n).lhsBatch by decide), dif_pos (show (0 : Fin S5000x128.rank) ∈ (dot_S5000x128_S128x2_S5000x2_1_0_0_1_n_n).lhsNonContracting by decide)]
  rfl
theorem left_col (i : S5000x2.Idx) (q : (dot_S5000x128_S128x2_S5000x2_1_0_0_1_n_n).contr.Idx) : ((dot_S5000x128_S128x2_S5000x2_1_0_0_1_n_n).lhsIdx i q 1).val = (q ⟨0, by decide⟩).val :=
  (dot_S5000x128_S128x2_S5000x2_1_0_0_1_n_n).lhsIdx_val_of_single rfl i q
theorem right_row (i : S5000x2.Idx) (q : (dot_S5000x128_S128x2_S5000x2_1_0_0_1_n_n).contr.Idx) : ((dot_S5000x128_S128x2_S5000x2_1_0_0_1_n_n).rhsIdx i q 0).val = (q ⟨0, by decide⟩).val :=
  (dot_S5000x128_S128x2_S5000x2_1_0_0_1_n_n).rhsIdx_val_of_single rfl i q
theorem right_col (i : S5000x2.Idx) (q : (dot_S5000x128_S128x2_S5000x2_1_0_0_1_n_n).contr.Idx) : ((dot_S5000x128_S128x2_S5000x2_1_0_0_1_n_n).rhsIdx i q 1).val = (i 1).val := by
  unfold DotDims.rhsIdx
  rw [dif_neg (show ¬(1 : Fin S128x2.rank) ∈ (dot_S5000x128_S128x2_S5000x2_1_0_0_1_n_n).rhsBatch by decide), dif_pos (show (1 : Fin S128x2.rank) ∈ (dot_S5000x128_S128x2_S5000x2_1_0_0_1_n_n).rhsNonContracting by decide)]
  rfl

/-! ## The body's stored value at an entry -/

/-- Entry `(p, q)` of the stored block is the sum over `j` of `left (p, j) · right (j, q)`. -/
theorem stored_apply (x0 : Vec Ideal S5000x128 .f32) (x1 : Vec Ideal S128x2 .f32) (p : Fin 5000) (q : Fin 2) :
    k4_pay1 x0 x1 (ix2 p q) = ∑ j : Fin 128, x0 (ix2 p j) * x1 (ix2 j q) := by
  unfold k4_pay1
  refine (PlainDot.matmul_zero_apply (a := 5000) (k := 128) (b := 2) (dot_S5000x128_S128x2_S5000x2_1_0_0_1_n_n) none rfl rfl left_row left_col right_row right_col
    (truncf .bf16 (shapeCast S5000x128 x0 shapeCasts_S5000x128_S5000x128) bitsLt_bf16_f32) (truncf .bf16 x1 bitsLt_bf16_f32) p q).trans ?_
  refine Finset.sum_congr rfl fun j _ => ?_
  show (shapeCast S5000x128 x0 shapeCasts_S5000x128_S5000x128) (ix2 p j) * x1 (ix2 j q) = _
  rw [shapeCast_self]

/-- A block entry against the whole product: when the block's row `j 0` is the array's row `i 0`, the columns agree
    and the right operands are the same array, the stored entry is the product's entry. -/
theorem stored_eq_product (X : (⟨2, ![50000, 128]⟩ : Shape).Idx → EReal) (Wt : (⟨2, ![128, 2]⟩ : Shape).Idx → EReal)
    (x0 : Vec Ideal S5000x128 .f32) (x1 : Vec Ideal S128x2 .f32) (j : S5000x2.Idx) (i : (⟨2, ![50000, 2]⟩ : Shape).Idx)
    (hrow : ∀ k : Fin 128, x0 (ix2 (⟨(j 0).val, (j 0).isLt⟩ : Fin 5000) k) = X (ix2 (⟨(i 0).val, (i 0).isLt⟩ : Fin 50000) k))
    (hcol : (i 1).val = (j 1).val) (hw : x1 = Wt) :
    k4_pay1 x0 x1 j = Spec.mm X Wt i := by
  subst hw
  have hj : j = ix2 (⟨(j 0).val, (j 0).isLt⟩ : Fin 5000) (⟨(j 1).val, (j 1).isLt⟩ : Fin 2) := eq_ix2 j
  rw [hj, stored_apply]
  unfold Spec.mm
  refine Finset.sum_congr rfl fun k _ => ?_
  rw [hrow k]
  refine congrArg (fun z => X (ix2 (⟨(i 0).val, (i 0).isLt⟩ : Fin 50000) k) * x1 z) ?_
  exact congrArg (ix2 k) (Fin.ext hcol.symm)

/-! ## From the blocks to the array -/

section
variable (V : (c : Dev nD) → (b : Ref sig .tc) → Buf (Elt Ideal) ((c : Thread nD τ).loc b))

/-- The printed index maps over the grid: the left operand's block and the result's block sit at the same row block,
    the right operand's block is the whole array, and there are ten row blocks. -/
theorem index_maps : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every row block is some point's. -/
theorem index_onto : ∀ q0 : Fin 10, ∃ t : Fin cfg4.N, win4_2.index t = ![q0.val, 0] :=
  (by decide +kernel : ∀ q0 : Fin 10, ∃ t : Fin grid4.N, win4_2.index t = ![q0.val, 0])

/-- What point `t` writes back is block `t` of the product of the two arrays the call reads. -/
theorem flushed_eq (c : Dev nD) (t : Fin cfg4.N) :
    (dat4 V c).flushed 2 t = ((cfg4.win 2).blk t).view.read (Elt Ideal) (Spec.mm (n := 50000) (k := 128) (b := 2) (V c main_v60) (V c main_arg6)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x2) zero_offsets]
  obtain ⟨e0, e1, e2, e3, e4, e5⟩ := index_maps t
  funext j
  refine stored_eq_product (V c main_v60) (V c main_arg6) (iblk4 V c 0 t) (iblk4 V c 1 t) j (((cfg4.win 2).blk t).view.emb j) (fun k => ?_) ?_ ?_
  · show V c main_v60 (((cfg4.win 0).blk t).view.emb (ix2 (⟨(j 0).val, (j 0).isLt⟩ : Fin 5000) k)) = _
    refine congrArg (V c main_v60) (funext fun a => Fin.ext ?_)
    match a with
    | ⟨0, _⟩ => show win4_0.index t (0 : Fin 2) * 5000 + 1 * (j 0).val = win4_2.index t (0 : Fin 2) * 5000 + 1 * (j 0).val; rw [e0]
    | ⟨1, _⟩ => show win4_0.index t (1 : Fin 2) * 128 + 1 * k.val = k.val; rw [e1]; omega
  · show win4_2.index t (1 : Fin 2) * 2 + 1 * (j 1).val = (j 1).val
    rw [e4]; omega
  · funext y
    show V c main_arg6 (((cfg4.win 1).blk t).view.emb y) = V c main_arg6 y
    refine congrArg (V c main_arg6) (funext fun a => Fin.ext ?_)
    match a with
    | ⟨0, _⟩ => show win4_1.index t (0 : Fin 2) * 128 + 1 * (y 0).val = (y 0).val; rw [e2]; omega
    | ⟨1, _⟩ => show win4_1.index t (1 : Fin 2) * 2 + 1 * (y 1).val = (y 1).val; rw [e3]; omega

/-- An index of the result array is in point `t`'s block iff each coordinate is in the block's range on its axis. -/
theorem mem_block (t : Fin cfg4.N) (i : (⟨2, ![50000, 2]⟩ : Shape).Idx) :
    i ∈ ((cfg4.win 2).blk t).view.set ↔ ∀ a : Fin 2, win4_2.index t a * S5000x2.size a ≤ (i a).val ∧ (i a).val < win4_2.index t a * S5000x2.size a + S5000x2.size a := by
  show i ∈ ((View.whole main_v61).slice (win4_2.rect t)).set ↔ _
  rw [View.set_slice_whole, Rect.mem_set_unit]
  exact Iff.rfl

/-- The ten blocks cover the result array: row `r` lies in the block of point `r / 5000`. -/
theorem covered (i : (⟨2, ![50000, 2]⟩ : Shape).Idx) :
    ∃ t : Fin cfg4.N, (cfg4.win 2).flush t = true ∧ i ∈ ((cfg4.win 2).blk t).view.set := by
  have hi0 : (i 0).val < 50000 := (i 0).isLt
  have hi1 : (i 1).val < 2 := (i 1).isLt
  obtain ⟨t, ht⟩ := index_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 2 ≤ (i 1).val ∧ (i 1).val < win4_2.index t (1 : Fin 2) * 2 + 2; omega

/-- The result array after the call is the product of the two arrays the call reads. -/
theorem final (c : Dev nD) : (dat4 V c).arrAt 2 cfg4.N = Spec.mm (n := 50000) (k := 128) (b := 2) (V c main_v60) (V c main_arg6) :=
  (dat4 V c).arrAt_eq_of_cover 2 _ (fun t _ => flushed_eq V c t) (covered)

end

end Cert.KernelIdeal.Product4

end
-- ==== Proof.Clip1.lean ====
/-
  The first layer's bias and clipping: the pipelined call's result array is its input with the bias row added and clipped below at zero.

  The call walks ten grid points; point `t` reads rows `5000·t … 5000·t + 4999` of the aggregated features and the
  one-row bias, and writes the same rows of its result.  The body adds the bias row to every row of the block and takes
  the maximum with zero, entry by entry, so the block it writes back is the block of the biased, clipped array.  The ten
  blocks tile the rows, so the result array ends holding that array whole.
-/
import proofs.«172482_j78709570666802_1_alg».proof.Proof.Gen.KernelIdeal.Frame
import proofs.«172482_j78709570666802_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Clip1

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-buffer rectangle are all zero. -/
theorem zero_offsets : (![0, 0] : Fin 2 → Nat) = fun _ => 0 := funext fun a => by fin_cases a <;> rfl

/-! ## The body's stored value at an entry -/

/-- Entry `(p, q)` of the stored block is `max (x (p, q) + bias (0, q)) 0`. -/
theorem stored_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) 0 := by
  unfold k1_pay1
  show max ((shapeCast S5000x128 x0 shapeCasts_S5000x128_S5000x128) (ix2 p q)
      + (broadcastTo S5000x128 (shapeCast S1x128 x1 shapeCasts_S1x128_S1x128) broadcasts_S1x128_S5000x128) (ix2 p q)) (Ideal.ofBits .f32 0x00000000#32) = _
  rw [shapeCast_self, shapeCast_self, Ideal.ofBits_zero_f32]
  exact congrArg (fun z => max (x0 (ix2 p q) + z) 0) (broadcastTo_1b_ab_apply (a := 5000) (b := 128) x1 broadcasts_S1x128_S5000x128 p q)

/-- A block entry against the whole array: when the block's entry `j` is the array's entry `i`, the columns agree and
    the bias rows are the same array, the stored entry is the biased, clipped array's entry. -/
theorem stored_eq_spec (A : (⟨2, ![50000, 128]⟩ : Shape).Idx → EReal) (Bt : (⟨2, ![1, 128]⟩ : Shape).Idx → EReal)
    (x0 : Vec Ideal S5000x128 .f32) (x1 : Vec Ideal S1x128 .f32) (j : S5000x128.Idx) (i : (⟨2, ![50000, 128]⟩ : Shape).Idx)
    (hent : x0 j = A i) (hcol : (i 1).val = (j 1).val) (hb : x1 = Bt) :
    k1_pay1 x0 x1 j = Spec.biasRelu A (fun i => Bt (ix2 (0 : Fin 1) (⟨(i 0).val, (i 0).isLt⟩ : Fin 128))) i := by
  subst hb
  have hj : j = ix2 (⟨(j 0).val, (j 0).isLt⟩ : Fin 5000) (⟨(j 1).val, (j 1).isLt⟩ : Fin 128) := eq_ix2 j
  have h := stored_apply x0 x1 (⟨(j 0).val, (j 0).isLt⟩ : Fin 5000) (⟨(j 1).val, (j 1).isLt⟩ : Fin 128)
  rw [← hj, hent] at h
  rw [h]
  unfold Spec.biasRelu
  refine congrArg (fun z => max (A i + x1 (ix2 (0 : Fin 1) z)) 0) (Fin.ext ?_)
  exact hcol.symm

/-! ## From the blocks to the array -/

section
variable (V : (c : Dev nD) → (b : Ref sig .tc) → Buf (Elt Ideal) ((c : Thread nD τ).loc b))

/-- The printed index maps over the grid: the first operand's block and the result's block sit at the same row block,
    the second operand's block is the whole array, and there are ten row blocks. -/
theorem index_maps : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the biased, clipped array. -/
theorem flushed_eq (c : Dev nD) (t : Fin cfg1.N) :
    (dat1 V c).flushed 2 t = ((cfg1.win 2).blk t).view.read (Elt Ideal) (Spec.biasRelu (n := 50000) (b := 128) (V c main_v42) (fun i => V c main_v43 (ix2 (0 : Fin 1) (⟨(i 0).val, (i 0).isLt⟩ : Fin 128)))) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_maps t
  funext j
  refine stored_eq_spec (V c main_v42) (V c main_v43) (iblk1 V c 0 t) (iblk1 V c 1 t) j (((cfg1.win 2).blk t).view.emb j) ?_ ?_ ?_
  · show V c main_v42 (((cfg1.win 0).blk t).view.emb j) = V c main_v42 (((cfg1.win 2).blk t).view.emb j)
    refine congrArg (V c main_v42) (funext fun a => Fin.ext ?_)
    match a with
    | ⟨0, _⟩ => show win1_0.index t (0 : Fin 2) * 5000 + 1 * (j 0).val = win1_2.index t (0 : Fin 2) * 5000 + 1 * (j 0).val; rw [e0]
    | ⟨1, _⟩ => show win1_0.index t (1 : Fin 2) * 128 + 1 * (j 1).val = win1_2.index t (1 : Fin 2) * 128 + 1 * (j 1).val; rw [e1, e4]
  · show win1_2.index t (1 : Fin 2) * 128 + 1 * (j 1).val = (j 1).val
    rw [e4]; omega
  · funext y
    show V c main_v43 (((cfg1.win 1).blk t).view.emb y) = V c main_v43 y
    refine congrArg (V c main_v43) (funext fun a => Fin.ext ?_)
    match a with
    | ⟨0, _⟩ => show win1_1.index t (0 : Fin 2) * 1 + 1 * (y 0).val = (y 0).val; rw [e2]; omega
    | ⟨1, _⟩ => show win1_1.index t (1 : Fin 2) * 128 + 1 * (y 1).val = (y 1).val; rw [e3]; omega

/-- An index of the result array is in point `t`'s block iff each coordinate is in the block's range on its axis. -/
theorem mem_block (t : Fin cfg1.N) (i : (⟨2, ![50000, 128]⟩ : Shape).Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- The ten blocks cover the result array: row `r` lies in the block of point `r / 5000`. -/
theorem covered (i : (⟨2, ![50000, 128]⟩ : Shape).Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the call, as one function of the two arrays the call reads. -/
theorem final (c : Dev nD) : (dat1 V c).arrAt 2 cfg1.N = Spec.biasRelu (n := 50000) (b := 128) (V c main_v42) (fun i => V c main_v43 (ix2 (0 : Fin 1) (⟨(i 0).val, (i 0).isLt⟩ : Fin 128))) :=
  (dat1 V c).arrAt_eq_of_cover 2 _ (fun t _ => flushed_eq V c t) (covered)

end

end Cert.KernelIdeal.Clip1

end
-- ==== Proof.Clip3.lean ====
/-
  The second layer's bias and clipping: the pipelined call's result array is its input with the bias row added and clipped below at zero.

  The call walks ten grid points; point `t` reads rows `5000·t … 5000·t + 4999` of the aggregated features and the
  one-row bias, and writes the same rows of its result.  The body adds the bias row to every row of the block and takes
  the maximum with zero, entry by entry, so the block it writes back is the block of the biased, clipped array.  The ten
  blocks tile the rows, so the result array ends holding that array whole.
-/
import proofs.«172482_j78709570666802_1_alg».proof.Proof.Gen.KernelIdeal.Frame
import proofs.«172482_j78709570666802_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Clip3

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-buffer rectangle are all zero. -/
theorem zero_offsets : (![0, 0] : Fin 2 → Nat) = fun _ => 0 := funext fun a => by fin_cases a <;> rfl

/-! ## The body's stored value at an entry -/

/-- Entry `(p, q)` of the stored block is `max (x (p, q) + bias (0, q)) 0`. -/
theorem stored_apply (x0 : Vec Ideal S5000x128 .f32) (x1 : Vec Ideal S1x128 .f32) (p : Fin 5000) (q : Fin 128) :
    k3_pay1 x0 x1 (ix2 p q) = max (x0 (ix2 p q) + x1 (ix2 (0 : Fin 1) q)) 0 := by
  unfold k3_pay1
  show max ((shapeCast S5000x128 x0 shapeCasts_S5000x128_S5000x128) (ix2 p q)
      + (broadcastTo S5000x128 (shapeCast S1x128 x1 shapeCasts_S1x128_S1x128) broadcasts_S1x128_S5000x128) (ix2 p q)) (Ideal.ofBits .f32 0x00000000#32) = _
  rw [shapeCast_self, shapeCast_self, Ideal.ofBits_zero_f32]
  exact congrArg (fun z => max (x0 (ix2 p q) + z) 0) (broadcastTo_1b_ab_apply (a := 5000) (b := 128) x1 broadcasts_S1x128_S5000x128 p q)

/-- A block entry against the whole array: when the block's entry `j` is the array's entry `i`, the columns agree and
    the bias rows are the same array, the stored entry is the biased, clipped array's entry. -/
theorem stored_eq_spec (A : (⟨2, ![50000, 128]⟩ : Shape).Idx → EReal) (Bt : (⟨2, ![1, 128]⟩ : Shape).Idx → EReal)
    (x0 : Vec Ideal S5000x128 .f32) (x1 : Vec Ideal S1x128 .f32) (j : S5000x128.Idx) (i : (⟨2, ![50000, 128]⟩ : Shape).Idx)
    (hent : x0 j = A i) (hcol : (i 1).val = (j 1).val) (hb : x1 = Bt) :
    k3_pay1 x0 x1 j = Spec.biasRelu A (fun i => Bt (ix2 (0 : Fin 1) (⟨(i 0).val, (i 0).isLt⟩ : Fin 128))) i := by
  subst hb
  have hj : j = ix2 (⟨(j 0).val, (j 0).isLt⟩ : Fin 5000) (⟨(j 1).val, (j 1).isLt⟩ : Fin 128) := eq_ix2 j
  have h := stored_apply x0 x1 (⟨(j 0).val, (j 0).isLt⟩ : Fin 5000) (⟨(j 1).val, (j 1).isLt⟩ : Fin 128)
  rw [← hj, hent] at h
  rw [h]
  unfold Spec.biasRelu
  refine congrArg (fun z => max (A i + x1 (ix2 (0 : Fin 1) z)) 0) (Fin.ext ?_)
  exact hcol.symm

/-! ## From the blocks to the array -/

section
variable (V : (c : Dev nD) → (b : Ref sig .tc) → Buf (Elt Ideal) ((c : Thread nD τ).loc b))

/-- The printed index maps over the grid: the first operand's block and the result's block sit at the same row block,
    the second operand's block is the whole array, and there are ten row blocks. -/
theorem index_maps : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the biased, clipped array. -/
theorem flushed_eq (c : Dev nD) (t : Fin cfg3.N) :
    (dat3 V c).flushed 2 t = ((cfg3.win 2).blk t).view.read (Elt Ideal) (Spec.biasRelu (n := 50000) (b := 128) (V c main_v58) (fun i => V c main_v59 (ix2 (0 : Fin 1) (⟨(i 0).val, (i 0).isLt⟩ : Fin 128)))) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e0, e1, e2, e3, e4, e5⟩ := index_maps t
  funext j
  refine stored_eq_spec (V c main_v58) (V c main_v59) (iblk3 V c 0 t) (iblk3 V c 1 t) j (((cfg3.win 2).blk t).view.emb j) ?_ ?_ ?_
  · show V c main_v58 (((cfg3.win 0).blk t).view.emb j) = V c main_v58 (((cfg3.win 2).blk t).view.emb j)
    refine congrArg (V c main_v58) (funext fun a => Fin.ext ?_)
    match a with
    | ⟨0, _⟩ => show win3_0.index t (0 : Fin 2) * 5000 + 1 * (j 0).val = win3_2.index t (0 : Fin 2) * 5000 + 1 * (j 0).val; rw [e0]
    | ⟨1, _⟩ => show win3_0.index t (1 : Fin 2) * 128 + 1 * (j 1).val = win3_2.index t (1 : Fin 2) * 128 + 1 * (j 1).val; rw [e1, e4]
  · show win3_2.index t (1 : Fin 2) * 128 + 1 * (j 1).val = (j 1).val
    rw [e4]; omega
  · funext y
    show V c main_v59 (((cfg3.win 1).blk t).view.emb y) = V c main_v59 y
    refine congrArg (V c main_v59) (funext fun a => Fin.ext ?_)
    match a with
    | ⟨0, _⟩ => show win3_1.index t (0 : Fin 2) * 1 + 1 * (y 0).val = (y 0).val; rw [e2]; omega
    | ⟨1, _⟩ => show win3_1.index t (1 : Fin 2) * 128 + 1 * (y 1).val = (y 1).val; rw [e3]; omega

/-- An index of the result array is in point `t`'s block iff each coordinate is in the block's range on its axis. -/
theorem mem_block (t : Fin cfg3.N) (i : (⟨2, ![50000, 128]⟩ : Shape).Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- The ten blocks cover the result array: row `r` lies in the block of point `r / 5000`. -/
theorem covered (i : (⟨2, ![50000, 128]⟩ : Shape).Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the call, as one function of the two arrays the call reads. -/
theorem final (c : Dev nD) : (dat3 V c).arrAt 2 cfg3.N = Spec.biasRelu (n := 50000) (b := 128) (V c main_v58) (fun i => V c main_v59 (ix2 (0 : Fin 1) (⟨(i 0).val, (i 0).isLt⟩ : Fin 128))) :=
  (dat3 V c).arrAt_eq_of_cover 2 _ (fun t _ => flushed_eq V c t) (covered)

end

end Cert.KernelIdeal.Clip3

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.LogSoftmax5.lean ====
/-
  The last layer's bias and log-softmax: the pipelined call's result array is the row-wise log-softmax of its input with the bias row added.

  The call walks ten grid points; point `t` reads rows `5000·t … 5000·t + 4999` of the aggregated two-column scores and
  the one-row bias, and writes the same rows of its result.  On each row the body adds the bias, subtracts the row's
  maximum, and subtracts the logarithm of the sum of the exponentials of the shifted row: the logarithm of the row's
  softmax.  Every step reads only the entry's own row, so the block written back is the block of the whole array's
  row-wise log-softmax; the ten blocks tile the rows.
-/
import proofs.«172482_j78709570666802_1_alg».proof.Proof.Gen.KernelIdeal.Frame
import proofs.«172482_j78709570666802_1_alg».proof.Proof.Spec
import proofs.«172482_j78709570666802_1_alg».proof.Proof.LibKeepdims
import proofs.«172482_j78709570666802_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LogSoftmax5

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-buffer rectangle are all zero. -/
theorem zero_offsets : (![0, 0] : Fin 2 → Nat) = fun _ => 0 := funext fun a => by fin_cases a <;> rfl

/-! ## The body's stored value at an entry -/

/-- The block with the bias row added, at `(p, q)`. -/
def shifted (x0 : FVec Ideal S5000x2 .f32) (x1 : FVec Ideal S1x2 .f32) (p : Fin 5000) (q : Fin 2) : EReal :=
  x0 (ix2 p q) + x1 (ix2 (0 : Fin 1) q)

/-- The row maximum of the biased block. -/
def top (x0 : FVec Ideal S5000x2 .f32) (x1 : FVec Ideal S1x2 .f32) (p : Fin 5000) : EReal :=
  (Finset.univ : Finset (Fin 2)).fold max ⊥ (shifted x0 x1 p)

/-- The body's first value: the block with the bias row added to every row. -/
def biasedBlock (x0 : FVec Ideal S5000x2 .f32) (x1 : FVec Ideal S1x2 .f32) : FVec Ideal S5000x2 .f32 :=
  addf (F := Ideal) (shapeCast S5000x2 x0 shapeCasts_S5000x2_S5000x2) (broadcastTo S5000x2 (shapeCast S1x2 x1 shapeCasts_S1x2_S1x2) broadcasts_S1x2_S5000x2)

/-- The body's second value: the biased block less each row's maximum. -/
def centredBlock (x0 : FVec Ideal S5000x2 .f32) (x1 : FVec Ideal S1x2 .f32) : FVec Ideal S5000x2 .f32 :=
  subf (F := Ideal) (biasedBlock x0 x1)
    (broadcastTo S5000x2 (shapeCast S5000x1 (multiReduction (F := Ideal) .maximumf [1] S5000 (biasedBlock x0 x1) 0xFF800000#32 reduces_S5000x2_S5000 (.inl rfl) rfl) shapeCasts_S5000_S5000x1) broadcasts_S5000x1_S5000x2)

/-- The stored value in these terms: the centred block less the logarithm of each row's sum of exponentials. -/
theorem stored_unfold (x0 : FVec Ideal S5000x2 .f32) (x1 : FVec Ideal S1x2 .f32) :
    k5_pay1 (F := Ideal) x0 x1 = subf (F := Ideal) (centredBlock x0 x1)
      (broadcastTo S5000x2 (log (F := Ideal) (shapeCast S5000x1 (multiReduction (F := Ideal) .add [1] S5000 (exp (F := Ideal) (centredBlock x0 x1)) 0x00000000#32 reduces_S5000x2_S5000 (.inl rfl) rfl) shapeCasts_S5000_S5000x1)) broadcasts_S5000x1_S5000x2) := rfl

theorem biasedBlock_apply (x0 : FVec Ideal S5000x2 .f32) (x1 : FVec Ideal S1x2 .f32) (p : Fin 5000) (q : Fin 2) :
    biasedBlock x0 x1 (ix2 p q) = shifted x0 x1 p q := by
  unfold biasedBlock
  rw [shapeCast_self, shapeCast_self]
  exact congrArg (fun z => x0 (ix2 p q) + z) (broadcastTo_1b_ab_apply (a := 5000) (b := 2) x1 broadcasts_S1x2_S5000x2 p q)

theorem centredBlock_apply (x0 : FVec Ideal S5000x2 .f32) (x1 : FVec Ideal S1x2 .f32) (p : Fin 5000) (q : Fin 2) :
    centredBlock x0 x1 (ix2 p q) = shifted x0 x1 p q - top x0 x1 p := by
  unfold centredBlock
  rw [subf_apply, biasedBlock_apply, Keepdims.broadcastTo_a1_ab_apply (a := 5000) (b := 2), Keepdims.shapeCast_a_a1_apply (a := 5000)]
  refine congrArg (fun z => shifted x0 x1 p q - z) ?_
  refine (RowOps.rowMax_apply (a := 5000) (b := 2) (biasedBlock x0 x1) reduces_S5000x2_S5000 rfl p).trans ?_
  exact congrArg (fun f => (Finset.univ : Finset (Fin 2)).fold max ⊥ f) (funext fun k => biasedBlock_apply x0 x1 p k)

/-- Entry `(p, q)` of the stored block: the biased entry less the row's maximum, less the logarithm of the sum over the
    row of the exponentials of the biased entries less the maximum. -/
theorem stored_apply (x0 : FVec Ideal S5000x2 .f32) (x1 : FVec Ideal S1x2 .f32) (p : Fin 5000) (q : Fin 2) :
    k5_pay1 (F := Ideal) x0 x1 (ix2 p q)
      = (shifted x0 x1 p q - top x0 x1 p) - Ideal.log (∑ k : Fin 2, Ideal.exp (shifted x0 x1 p k - top x0 x1 p)) := by
  rw [stored_unfold, subf_apply, centredBlock_apply, Keepdims.broadcastTo_a1_ab_apply (a := 5000) (b := 2)]
  refine congrArg (fun z => (shifted x0 x1 p q - top x0 x1 p) - z) ?_
  show Ideal.log (shapeCast S5000x1 (multiReduction (F := Ideal) .add [1] S5000 (exp (F := Ideal) (centredBlock x0 x1)) 0x00000000#32 reduces_S5000x2_S5000 (.inl rfl) rfl) shapeCasts_S5000_S5000x1 (ix2 p (0 : Fin 1))) = _
  rw [Keepdims.shapeCast_a_a1_apply (a := 5000), Keepdims.rowSum_apply (a := 5000) (b := 2) (exp (F := Ideal) (centredBlock x0 x1)) reduces_S5000x2_S5000 rfl p]
  refine congrArg Ideal.log (Finset.sum_congr rfl fun k _ => ?_)
  show Ideal.exp (centredBlock x0 x1 (ix2 p k)) = _
  rw [centredBlock_apply]

/-- A block entry against the whole array: when the block's row `j 0` is the array's row `i 0`, the columns agree and
    the bias rows are the same array, the stored entry is the entry of the whole array's row-wise log-softmax. -/
theorem stored_eq_spec (A : (⟨2, ![50000, 2]⟩ : Shape).Idx → EReal) (Bt : (⟨2, ![1, 2]⟩ : Shape).Idx → EReal)
    (x0 : FVec Ideal S5000x2 .f32) (x1 : FVec Ideal S1x2 .f32) (j : S5000x2.Idx) (i : (⟨2, ![50000, 2]⟩ : Shape).Idx)
    (hrow : ∀ k : Fin 2, x0 (ix2 (⟨(j 0).val, (j 0).isLt⟩ : Fin 5000) k) = A (ix2 (⟨(i 0).val, (i 0).isLt⟩ : Fin 50000) k))
    (hcol : (i 1).val = (j 1).val) (hb : x1 = Bt) :
    k5_pay1 (F := Ideal) x0 x1 j = Spec.biasLogSoftmax A (fun i => Bt (ix2 (0 : Fin 1) (⟨(i 0).val, (i 0).isLt⟩ : Fin 2))) i := by
  subst hb
  have hj : j = ix2 (⟨(j 0).val, (j 0).isLt⟩ : Fin 5000) (⟨(j 1).val, (j 1).isLt⟩ : Fin 2) := eq_ix2 j
  rw [hj, stored_apply]
  have hs : ∀ k : Fin 2, shifted x0 x1 (⟨(j 0).val, (j 0).isLt⟩ : Fin 5000) k
      = Spec.biased A (fun i => x1 (ix2 (0 : Fin 1) (⟨(i 0).val, (i 0).isLt⟩ : Fin 2))) (⟨(i 0).val, (i 0).isLt⟩ : Fin 50000) k := fun k => by
    unfold shifted Spec.biased
    rw [hrow k]
  have hf : shifted x0 x1 (⟨(j 0).val, (j 0).isLt⟩ : Fin 5000)
      = Spec.biased A (fun i => x1 (ix2 (0 : Fin 1) (⟨(i 0).val, (i 0).isLt⟩ : Fin 2))) (⟨(i 0).val, (i 0).isLt⟩ : Fin 50000) := funext hs
  have hc : (⟨(j 1).val, (j 1).isLt⟩ : Fin 2) = ⟨(i 1).val, (i 1).isLt⟩ := Fin.ext hcol.symm
  unfold top
  rw [hf, hc]
  rfl

/-! ## From the blocks to the array -/

section
variable (V : (c : Dev nD) → (b : Ref sig .tc) → Buf (Elt Ideal) ((c : Thread nD τ).loc b))

/-- The printed index maps over the grid: the first operand's block and the result's block sit at the same row block,
    the second operand's block is the whole array, and there are ten row blocks. -/
theorem index_maps : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every row block is some point's. -/
theorem index_onto : ∀ q0 : Fin 10, ∃ t : Fin cfg5.N, win5_2.index t = ![q0.val, 0] :=
  (by decide +kernel : ∀ q0 : Fin 10, ∃ t : Fin grid5.N, win5_2.index t = ![q0.val, 0])

/-- What point `t` writes back is block `t` of the biased array's row-wise log-softmax. -/
theorem flushed_eq (c : Dev nD) (t : Fin cfg5.N) :
    (dat5 V c).flushed 2 t = ((cfg5.win 2).blk t).view.read (Elt Ideal) (Spec.biasLogSoftmax (n := 50000) (b := 2) (V c main_v74) (fun i => V c main_v75 (ix2 (0 : Fin 1) (⟨(i 0).val, (i 0).isLt⟩ : Fin 2)))) := by
  show (cfg5.win 2).cut (grid5.coords t) ((dat5 V c).after 2 t) = _
  rw [after5_2]
  unfold out5_2
  rw [View.canon_unit_zero zero_offsets]
  simp only [View.ld_unit_zero (S := S5000x2) zero_offsets, View.ld_unit_zero (S := S1x2) zero_offsets]
  obtain ⟨e0, e1, e2, e3, e4, e5⟩ := index_maps t
  funext j
  refine stored_eq_spec (V c main_v74) (V c main_v75) (iblk5 V c 0 t) (iblk5 V c 1 t) j (((cfg5.win 2).blk t).view.emb j) (fun k => ?_) ?_ ?_
  · show V c main_v74 (((cfg5.win 0).blk t).view.emb (ix2 (⟨(j 0).val, (j 0).isLt⟩ : Fin 5000) k)) = _
    refine congrArg (V c main_v74) (funext fun a => Fin.ext ?_)
    match a with
    | ⟨0, _⟩ => show win5_0.index t (0 : Fin 2) * 5000 + 1 * (j 0).val = win5_2.index t (0 : Fin 2) * 5000 + 1 * (j 0).val; rw [e0]
    | ⟨1, _⟩ => show win5_0.index t (1 : Fin 2) * 2 + 1 * k.val = k.val; rw [e1]; omega
  · show win5_2.index t (1 : Fin 2) * 2 + 1 * (j 1).val = (j 1).val
    rw [e4]; omega
  · funext y
    show V c main_v75 (((cfg5.win 1).blk t).view.emb y) = V c main_v75 y
    refine congrArg (V c main_v75) (funext fun a => Fin.ext ?_)
    match a with
    | ⟨0, _⟩ => show win5_1.index t (0 : Fin 2) * 1 + 1 * (y 0).val = (y 0).val; rw [e2]; omega
    | ⟨1, _⟩ => show win5_1.index t (1 : Fin 2) * 2 + 1 * (y 1).val = (y 1).val; rw [e3]; omega

/-- An index of the result array is in point `t`'s block iff each coordinate is in the block's range on its axis. -/
theorem mem_block (t : Fin cfg5.N) (i : (⟨2, ![50000, 2]⟩ : Shape).Idx) :
    i ∈ ((cfg5.win 2).blk t).view.set ↔ ∀ a : Fin 2, win5_2.index t a * S5000x2.size a ≤ (i a).val ∧ (i a).val < win5_2.index t a * S5000x2.size a + S5000x2.size a := by
  show i ∈ ((View.whole main_v76).slice (win5_2.rect t)).set ↔ _
  rw [View.set_slice_whole, Rect.mem_set_unit]
  exact Iff.rfl

/-- The ten blocks cover the result array: row `r` lies in the block of point `r / 5000`. -/
theorem covered (i : (⟨2, ![50000, 2]⟩ : Shape).Idx) :
    ∃ t : Fin cfg5.N, (cfg5.win 2).flush t = true ∧ i ∈ ((cfg5.win 2).blk t).view.set := by
  have hi0 : (i 0).val < 50000 := (i 0).isLt
  have hi1 : (i 1).val < 2 := (i 1).isLt
  obtain ⟨t, ht⟩ := index_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 2 ≤ (i 1).val ∧ (i 1).val < win5_2.index t (1 : Fin 2) * 2 + 2; omega

/-- The result array after the call, as one function of the two arrays the call reads. -/
theorem final (c : Dev nD) : (dat5 V c).arrAt 2 cfg5.N = Spec.biasLogSoftmax (n := 50000) (b := 2) (V c main_v74) (fun i => V c main_v75 (ix2 (0 : Fin 1) (⟨(i 0).val, (i 0).isLt⟩ : Fin 2))) :=
  (dat5 V c).arrAt_eq_of_cover 2 _ (fun t _ => flushed_eq V c t) (covered)

end

end Cert.KernelIdeal.LogSoftmax5

end
-- ==== Proof.RefStages.lean ====
/-
  The reference's dense stages as the three whole-array functions.

  Read one operation at a time, the reference's feature transforms are the matrix product; its bias additions followed
  by the rectifier are "add the bias row, clip at zero"; and its last bias addition followed by the library's
  log-softmax (the row maximum taken from `−∞` and once more against `−∞`, the shifted exponentials summed from `0`)
  is the shifted log-softmax of the biased rows.
-/
import proofs.«172482_j78709570666802_1_alg».proof.Proof.RefRead
import proofs.«172482_j78709570666802_1_alg».proof.Proof.Spec
import proofs.«172482_j78709570666802_1_alg».proof.Proof.LibRowOps
import Idealize.ShloMosaic.Lib.ValueIdx
import Idealize.ShloMosaic.PureOps.Ideal.Laws
import Idealize.ShloMosaic.PureOps.Reduce

noncomputable section

namespace Cert.ReferenceIdeal.Stages

open Cert.ReferenceIdeal Cert.ReferenceIdeal.Gen Cert.ReferenceIdeal.Read Idealize.ShloMosaic Idealize.ShloMosaic.TcCoe Idealize.ShloMosaic.ValueIdx

/-! ## The feature transforms are matrix products -/

/-- product_layer1 -/
theorem product_layer1 (x0 : (⟨S50000x128, .f32⟩ : BufTy).Contents (Elt Ideal)) (x2 : (⟨S128x128, .f32⟩ : BufTy).Contents (Elt Ideal)) :
    val_main_v7 (F := Ideal) x0 x2 = Spec.mm (x0) x2 := by
  funext i
  rw [val_main_v7_apply]
  unfold Spec.mm
  refine Finset.sum_congr rfl fun k _ => ?_
  have el : lidx_main_v7 i k = ix2 (⟨(i 0).val, (i 0).isLt⟩ : Fin 50000) k :=
    funext fun a => Fin.ext (by match a with | ⟨0, _⟩ => rfl | ⟨1, _⟩ => rfl)
  have er : ridx_main_v7 i k = ix2 k (⟨(i 1).val, (i 1).isLt⟩ : Fin 128) :=
    funext fun a => Fin.ext (by match a with | ⟨0, _⟩ => rfl | ⟨1, _⟩ => rfl)
  rw [el, er]

/-- product_layer2 -/
theorem product_layer2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v47 (F := Ideal) x0 x1 x2 x3 x4 = Spec.mm (val_main_v46 (F := Ideal) x0 x1 x2 x3) x4 := by
  funext i
  rw [val_main_v47_apply]
  unfold Spec.mm
  refine Finset.sum_congr rfl fun k _ => ?_
  have el : lidx_main_v47 i k = ix2 (⟨(i 0).val, (i 0).isLt⟩ : Fin 50000) k :=
    funext fun a => Fin.ext (by match a with | ⟨0, _⟩ => rfl | ⟨1, _⟩ => rfl)
  have er : ridx_main_v47 i k = ix2 k (⟨(i 1).val, (i 1).isLt⟩ : Fin 128) :=
    funext fun a => Fin.ext (by match a with | ⟨0, _⟩ => rfl | ⟨1, _⟩ => rfl)
  rw [el, er]

/-- product_layer3 -/
theorem product_layer3 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x2, .f32⟩ : BufTy).Contents (Elt Ideal)) :
    val_main_v87 (F := Ideal) x0 x1 x2 x3 x4 x5 x6 = Spec.mm (val_main_v86 (F := Ideal) x0 x1 x2 x3 x4 x5) x6 := by
  funext i
  rw [val_main_v87_apply]
  unfold Spec.mm
  refine Finset.sum_congr rfl fun k _ => ?_
  have el : lidx_main_v87 i k = ix2 (⟨(i 0).val, (i 0).isLt⟩ : Fin 50000) k :=
    funext fun a => Fin.ext (by match a with | ⟨0, _⟩ => rfl | ⟨1, _⟩ => rfl)
  have er : ridx_main_v87 i k = ix2 k (⟨(i 1).val, (i 1).isLt⟩ : Fin 2) :=
    funext fun a => Fin.ext (by match a with | ⟨0, _⟩ => rfl | ⟨1, _⟩ => rfl)
  rw [el, er]

/-! ## Bias and rectifier -/

theorem clip_layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) :
    val_main_v46 (F := Ideal) x0 x1 x2 x3 = Spec.biasRelu (val_main_v42 (F := Ideal) x0 x1 x2) x3 := by
  funext i
  rw [val_main_v46_apply, val_main_v45_apply, val_main_call0_v0_apply, val_main_call0_cst_apply, val_main_v44_apply, val_main_v43_apply]
  show max (val_main_v42 (F := Ideal) x0 x1 x2 i + x3 (idx_main_v43 (idx_main_v44 i))) (Ideal.ofBits .f32 0x00000000#32) = _
  rw [Ideal.ofBits_zero_f32]
  unfold Spec.biasRelu
  refine congrArg (fun z => max (val_main_v42 (F := Ideal) x0 x1 x2 i + x3 z) 0) ?_
  exact funext fun a => Fin.ext (by match a with | ⟨0, _⟩ => rfl)

theorem clip_layer2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v86 (F := Ideal) x0 x1 x2 x3 x4 x5 = Spec.biasRelu (val_main_v82 (F := Ideal) x0 x1 x2 x3 x4) x5 := by
  funext i
  rw [val_main_v86_apply, val_main_v85_apply, val_main_call1_v0_apply, val_main_call1_cst_apply, val_main_v84_apply, val_main_v83_apply]
  show max (val_main_v82 (F := Ideal) x0 x1 x2 x3 x4 i + x5 (idx_main_v83 (idx_main_v84 i))) (Ideal.ofBits .f32 0x00000000#32) = _
  rw [Ideal.ofBits_zero_f32]
  unfold Spec.biasRelu
  refine congrArg (fun z => max (val_main_v82 (F := Ideal) x0 x1 x2 x3 x4 i + x5 z) 0) ?_
  exact funext fun a => Fin.ext (by match a with | ⟨0, _⟩ => rfl)

/-! ## A row maximum on the host -/

/-- The host's maximum over the two columns from `−∞`, at row `r`, is the fold of `max` from `⊥` over the row. -/
theorem reduceMax_row (y : S50000x2.Idx → Ideal .f32) (g : Fin 2 → EReal) (r : Fin 50000)
    (hb : ∀ k : Fin 2, y (ix2 r k) = g k) :
    Host.reduce (FloatOps.maximumf (F := Ideal) (φ := .f32)) y (val_main_call2_cst (F := Ideal) : S_.Idx → Ideal .f32)
      reducesTo_S50000x2_S50000_d1 h_S_ (ix1 r) = (Finset.univ : Finset (Fin 2)).fold max ⊥ g := by
  have hR : S50000x2.Reduces [1] S50000 := by decide
  refine Eq.trans (Host.reduce_eq_fold_single (FloatOps.maximumf (F := Ideal) (φ := .f32)) y
    (val_main_call2_cst (F := Ideal) : S_.Idx → Ideal .f32) reducesTo_S50000x2_S50000_d1 hR h_S_ (ix1 r)) ?_
  rw [val_main_call2_cst_apply, Ideal.ofBits_def, RowOps.ofBits_neg_inf]
  refine congrArg (fun f => (Finset.univ : Finset (Fin 2)).fold max ⊥ f) (funext fun k => ?_)
  refine Eq.trans (congrArg y ?_) (hb k)
  exact funext fun a => Fin.ext (by match a with | ⟨0, _⟩ => rfl | ⟨1, _⟩ => rfl)

/-! ## Bias and log-softmax -/

section
variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x2, .f32⟩ : BufTy).Contents (Elt Ideal)) (x7 : (⟨S2, .f32⟩ : BufTy).Contents (Elt Ideal))

local notation "𝔸" => val_main_v122 (F := Ideal) x0 x1 x2 x3 x4 x5 x6

/-- The biased scores at `(r, q)`. -/
theorem biased_apply (r : Fin 50000) (q : Fin 2) :
    val_main_v125 (F := Ideal) x0 x1 x2 x3 x4 x5 x6 x7 (ix2 r q) = Spec.biased 𝔸 x7 r q := by
  rw [val_main_v125_apply, val_main_v124_apply, val_main_v123_apply]
  unfold Spec.biased
  refine congrArg (fun z => 𝔸 (ix2 r q) + x7 z) ?_
  exact funext fun a => Fin.ext (by match a with | ⟨0, _⟩ => rfl)

/-- The row maximum: the host's maximum over the two columns from `−∞`, then once more against `−∞`. -/
theorem rowMax_apply (r : Fin 50000) :
    val_main_call2_v2 (F := Ideal) x0 x1 x2 x3 x4 x5 x6 x7 (ix1 r) = Spec.rowMax 𝔸 x7 r := by
  rw [val_main_call2_v2_apply, val_main_call2_v1_apply, val_main_call2_cst_0_apply, Ideal.maximumf_def, Ideal.ofBits_def,
    RowOps.ofBits_neg_inf, max_bot_left]
  unfold val_main_call2_v0 Spec.rowMax
  have hb : ∀ k : Fin 2, val_main_v125 (F := Ideal) x0 x1 x2 x3 x4 x5 x6 x7 (ix2 r k) = Spec.biased 𝔸 x7 r k :=
    fun k => biased_apply x0 x1 x2 x3 x4 x5 x6 x7 r k
  generalize val_main_v125 (F := Ideal) x0 x1 x2 x3 x4 x5 x6 x7 = y at hb ⊢
  generalize Spec.biased 𝔸 x7 r = g at hb ⊢
  exact reduceMax_row y g r hb

/-- The shifted scores at `(r, q)`. -/
theorem shifted_apply (r : Fin 50000) (q : Fin 2) :
    val_main_call2_v5 (F := Ideal) x0 x1 x2 x3 x4 x5 x6 x7 (ix2 r q) = Spec.biased 𝔸 x7 r q - Spec.rowMax 𝔸 x7 r := by
  rw [val_main_call2_v5_apply, Ideal.subf_def, val_main_call2_v4_apply, val_main_call2_v3_apply, biased_apply]
  refine congrArg (fun z => Spec.biased 𝔸 x7 r q - z) ?_
  refine Eq.trans (congrArg (val_main_call2_v2 (F := Ideal) x0 x1 x2 x3 x4 x5 x6 x7) ?_) (rowMax_apply x0 x1 x2 x3 x4 x5 x6 x7 r)
  exact funext fun a => Fin.ext (by match a with | ⟨0, _⟩ => rfl)

/-- The sum over a row of the exponentials of the shifted scores. -/
theorem expSum_apply (r : Fin 50000) :
    val_main_call2_v7 (F := Ideal) x0 x1 x2 x3 x4 x5 x6 x7 (ix1 r) = ∑ q : Fin 2, Ideal.exp (Spec.biased 𝔸 x7 r q - Spec.rowMax 𝔸 x7 r) := by
  rw [val_main_call2_v7_apply, val_main_call2_cst_1_apply, Ideal.ofBits_def, Ideal.ofBits_zero_f32, zero_add]
  refine Finset.sum_congr rfl fun k _ => ?_
  rw [val_main_call2_v6_apply, Ideal.hostUnary_exp_def]
  refine congrArg Ideal.exp (Eq.trans (congrArg (val_main_call2_v5 (F := Ideal) x0 x1 x2 x3 x4 x5 x6 x7) ?_) (shifted_apply x0 x1 x2 x3 x4 x5 x6 x7 r k))
  exact funext fun a => Fin.ext (by match a with | ⟨0, _⟩ => rfl | ⟨1, _⟩ => rfl)

/-- The reference's result is the shifted log-softmax of the biased last-layer scores. -/
theorem logSoftmax_layer3 :
    val_main_v126 (F := Ideal) x0 x1 x2 x3 x4 x5 x6 x7 = Spec.biasLogSoftmax 𝔸 x7 := by
  funext i
  have hi : i = ix2 (⟨(i 0).val, (i 0).isLt⟩ : Fin 50000) (⟨(i 1).val, (i 1).isLt⟩ : Fin 2) := eq_ix2 i
  generalize (⟨(i 0).val, (i 0).isLt⟩ : Fin 50000) = r at hi
  generalize (⟨(i 1).val, (i 1).isLt⟩ : Fin 2) = c at hi
  subst hi
  have e : idx_main_call2_v8 (idx_main_call2_v10 (ix2 r c)) = ix1 r := funext fun a => Fin.ext (by match a with | ⟨0, _⟩ => rfl)
  rw [val_main_v126_apply, Ideal.subf_def, shifted_apply, val_main_call2_v10_apply, val_main_call2_v9_apply, Ideal.hostUnary_log_def,
    val_main_call2_v8_apply, e, expSum_apply]
  rfl

end

end Cert.ReferenceIdeal.Stages

end
-- ==== Proof.Chain.lean ====
/-
  The idealized kernel's result array as a function of the argument arrays.

  The program alternates stretches of host operations with pipelined calls.  Walking its ten segments from the launch:
  the first stretch builds the edge lists (the given edges followed by one self-loop per node) and the per-edge
  normalisation; each layer is then a feature transform (a call: the matrix product), the neighbourhood aggregation (a
  stretch: gather the transformed rows along the sources, scale by the normalisation, scatter-add along the targets —
  the very operations the reference applies, so they are carried as the reference's own terms), and a bias stage (a
  call: bias and rectifier in the first two layers, bias and log-softmax in the last).  Each segment's result is
  identified with the reference's value at the same place, given that the buffers it reads still hold what earlier
  segments left there.
-/
import proofs.«172482_j78709570666802_1_alg».proof.Proof.Product0
import proofs.«172482_j78709570666802_1_alg».proof.Proof.Product2
import proofs.«172482_j78709570666802_1_alg».proof.Proof.Product4
import proofs.«172482_j78709570666802_1_alg».proof.Proof.Clip1
import proofs.«172482_j78709570666802_1_alg».proof.Proof.Clip3
import proofs.«172482_j78709570666802_1_alg».proof.Proof.LogSoftmax5
import proofs.«172482_j78709570666802_1_alg».proof.Proof.RefStages
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

/-! ## The host stretches, over any contents of the buffers they read -/

section Stretches
variable (Wp : Valuation τ sig (Elt Ideal))

/-- The first stretch leaves the source list (the edges' sources, then the nodes). -/
theorem sources_of_launch :
    StableHlo.after hostOps0 Wp (Proc.devRef .tc main_v3) = Cert.ReferenceIdeal.Read.val_main_v3 (F := Ideal) (Wp (Proc.devRef .tc main_arg1)) := by
  after_results_simp <;> rfl

/-- The first stretch leaves the target list (the edges' targets, then the nodes). -/
theorem targets_of_launch :
    StableHlo.after hostOps0 Wp (Proc.devRef .tc main_v6) = Cert.ReferenceIdeal.Read.val_main_v6 (F := Ideal) (Wp (Proc.devRef .tc main_arg1)) := by
  after_results_simp <;> rfl

set_option maxRecDepth 65536 in
/-- The first stretch leaves the per-edge normalisation. -/
theorem norm_of_launch :
    StableHlo.after hostOps0 Wp (Proc.devRef .tc main_v28) = Cert.ReferenceIdeal.Read.val_main_v29 (F := Ideal) (Wp (Proc.devRef .tc main_arg1)) := by
  after_results_simp <;> rfl

/-- The second stretch aggregates the first layer's transformed features over the edges. -/
theorem aggregate_layer1 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
    (hh : Wp (Proc.devRef .tc main_v29) = Cert.ReferenceIdeal.Read.val_main_v7 (F := Ideal) x0 x2)
    (hs : Wp (Proc.devRef .tc main_v3) = Cert.ReferenceIdeal.Read.val_main_v3 (F := Ideal) x1)
    (hd : Wp (Proc.devRef .tc main_v6) = Cert.ReferenceIdeal.Read.val_main_v6 (F := Ideal) x1)
    (hn : Wp (Proc.devRef .tc main_v28) = Cert.ReferenceIdeal.Read.val_main_v29 (F := Ideal) x1) :
    StableHlo.after hostOps1 Wp (Proc.devRef .tc main_v42) = Cert.ReferenceIdeal.Read.val_main_v42 (F := Ideal) x0 x1 x2 := by
  after_results_simp
  rw [hh, hs, hd, hn]
  rfl

/-- The stretch also lays the bias vector out as one row. -/
theorem biasRow_layer1 : StableHlo.after hostOps1 Wp (Proc.devRef .tc main_v43) = shapeCast S1x128 (Wp (Proc.devRef .tc main_arg3)) shapeCasts_S128_S1x128 := by
  after_results
  rfl

/-- The third stretch aggregates the second layer's transformed features over the edges. -/
theorem aggregate_layer2 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (hh : Wp (Proc.devRef .tc main_v45) = Cert.ReferenceIdeal.Read.val_main_v47 (F := Ideal) x0 x1 x2 x3 x4)
    (hs : Wp (Proc.devRef .tc main_v3) = Cert.ReferenceIdeal.Read.val_main_v3 (F := Ideal) x1)
    (hd : Wp (Proc.devRef .tc main_v6) = Cert.ReferenceIdeal.Read.val_main_v6 (F := Ideal) x1)
    (hn : Wp (Proc.devRef .tc main_v28) = Cert.ReferenceIdeal.Read.val_main_v29 (F := Ideal) x1) :
    StableHlo.after hostOps3 Wp (Proc.devRef .tc main_v58) = Cert.ReferenceIdeal.Read.val_main_v82 (F := Ideal) x0 x1 x2 x3 x4 := by
  after_results_simp
  rw [hh, hs, hd, hn]
  rfl

/-- The stretch also lays the bias vector out as one row. -/
theorem biasRow_layer2 : StableHlo.after hostOps3 Wp (Proc.devRef .tc main_v59) = shapeCast S1x128 (Wp (Proc.devRef .tc main_arg5)) shapeCasts_S128_S1x128 := by
  after_results
  rfl

/-- The last stretch aggregates the last layer's transformed scores over the edges. -/
theorem aggregate_layer3 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x2, .f32⟩ : BufTy).Contents (Elt Ideal))
    (hh : Wp (Proc.devRef .tc main_v61) = Cert.ReferenceIdeal.Read.val_main_v87 (F := Ideal) x0 x1 x2 x3 x4 x5 x6)
    (hs : Wp (Proc.devRef .tc main_v3) = Cert.ReferenceIdeal.Read.val_main_v3 (F := Ideal) x1)
    (hd : Wp (Proc.devRef .tc main_v6) = Cert.ReferenceIdeal.Read.val_main_v6 (F := Ideal) x1)
    (hn : Wp (Proc.devRef .tc main_v28) = Cert.ReferenceIdeal.Read.val_main_v29 (F := Ideal) x1) :
    StableHlo.after hostOps5 Wp (Proc.devRef .tc main_v74) = Cert.ReferenceIdeal.Read.val_main_v122 (F := Ideal) x0 x1 x2 x3 x4 x5 x6 := by
  after_results_simp
  rw [hh, hs, hd, hn]
  rfl

/-- The stretch also lays the bias vector out as one row. -/
theorem biasRow_layer3 : StableHlo.after hostOps5 Wp (Proc.devRef .tc main_v75) = shapeCast S1x2 (Wp (Proc.devRef .tc main_arg7)) shapeCasts_S2_S1x2 := by
  after_results
  rfl

end Stretches

/-! ## Walking the segments -/

section Walk
variable (m : (ℓ : Loc nD τ sig) → Buf (Elt Ideal) ℓ) (ρ : Dev nD → PrngReg) (c : Dev nD)

/-! ### What the later segments read is still what the launch or the first stretch left -/

theorem arg0_at1 : W1 m ρ c (Proc.devRef .tc main_arg0) = (m ((c.tc : Thread nD τ).loc main_arg0)) := (show StableHlo.after hostOps0 (W0 m ρ c) (Proc.devRef .tc main_arg0) = W0 m ρ c (Proc.devRef .tc main_arg0) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem arg2_at1 : W1 m ρ c (Proc.devRef .tc main_arg2) = (m ((c.tc : Thread nD τ).loc main_arg2)) := (show StableHlo.after hostOps0 (W0 m ρ c) (Proc.devRef .tc main_arg2) = W0 m ρ c (Proc.devRef .tc main_arg2) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem arg3_at1 : W1 m ρ c (Proc.devRef .tc main_arg3) = (m ((c.tc : Thread nD τ).loc main_arg3)) := (show StableHlo.after hostOps0 (W0 m ρ c) (Proc.devRef .tc main_arg3) = W0 m ρ c (Proc.devRef .tc main_arg3) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem arg4_at1 : W1 m ρ c (Proc.devRef .tc main_arg4) = (m ((c.tc : Thread nD τ).loc main_arg4)) := (show StableHlo.after hostOps0 (W0 m ρ c) (Proc.devRef .tc main_arg4) = W0 m ρ c (Proc.devRef .tc main_arg4) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem arg5_at1 : W1 m ρ c (Proc.devRef .tc main_arg5) = (m ((c.tc : Thread nD τ).loc main_arg5)) := (show StableHlo.after hostOps0 (W0 m ρ c) (Proc.devRef .tc main_arg5) = W0 m ρ c (Proc.devRef .tc main_arg5) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem arg6_at1 : W1 m ρ c (Proc.devRef .tc main_arg6) = (m ((c.tc : Thread nD τ).loc main_arg6)) := (show StableHlo.after hostOps0 (W0 m ρ c) (Proc.devRef .tc main_arg6) = W0 m ρ c (Proc.devRef .tc main_arg6) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem arg7_at1 : W1 m ρ c (Proc.devRef .tc main_arg7) = (m ((c.tc : Thread nD τ).loc main_arg7)) := (show StableHlo.after hostOps0 (W0 m ρ c) (Proc.devRef .tc main_arg7) = W0 m ρ c (Proc.devRef .tc main_arg7) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem sources_at1 : W1 m ρ c (Proc.devRef .tc main_v3) = Cert.ReferenceIdeal.Read.val_main_v3 (F := Ideal) (m ((c.tc : Thread nD τ).loc main_arg1)) := sources_of_launch (W0 m ρ c)
theorem targets_at1 : W1 m ρ c (Proc.devRef .tc main_v6) = Cert.ReferenceIdeal.Read.val_main_v6 (F := Ideal) (m ((c.tc : Thread nD τ).loc main_arg1)) := targets_of_launch (W0 m ρ c)
theorem norm_at1 : W1 m ρ c (Proc.devRef .tc main_v28) = Cert.ReferenceIdeal.Read.val_main_v29 (F := Ideal) (m ((c.tc : Thread nD τ).loc main_arg1)) := norm_of_launch (W0 m ρ c)

theorem arg3_at2 : W2 m ρ c (Proc.devRef .tc main_arg3) = (m ((c.tc : Thread nD τ).loc main_arg3)) :=
    (W2_of_ne m ρ c main_arg3 (by decide)).trans <|
    (arg3_at1 m ρ c)
theorem sources_at2 : W2 m ρ c (Proc.devRef .tc main_v3) = Cert.ReferenceIdeal.Read.val_main_v3 (F := Ideal) (m ((c.tc : Thread nD τ).loc main_arg1)) :=
    (W2_of_ne m ρ c main_v3 (by decide)).trans <|
    (sources_at1 m ρ c)
theorem targets_at2 : W2 m ρ c (Proc.devRef .tc main_v6) = Cert.ReferenceIdeal.Read.val_main_v6 (F := Ideal) (m ((c.tc : Thread nD τ).loc main_arg1)) :=
    (W2_of_ne m ρ c main_v6 (by decide)).trans <|
    (targets_at1 m ρ c)
theorem norm_at2 : W2 m ρ c (Proc.devRef .tc main_v28) = Cert.ReferenceIdeal.Read.val_main_v29 (F := Ideal) (m ((c.tc : Thread nD τ).loc main_arg1)) :=
    (W2_of_ne m ρ c main_v28 (by decide)).trans <|
    (norm_at1 m ρ c)
theorem arg4_at4 : W4 m ρ c (Proc.devRef .tc main_arg4) = (m ((c.tc : Thread nD τ).loc main_arg4)) :=
    (W4_of_ne m ρ c main_arg4 (by decide)).trans <|
    (show StableHlo.after hostOps1 (W2 m ρ c) (Proc.devRef .tc main_arg4) = W2 m ρ c (Proc.devRef .tc main_arg4) from StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (W2_of_ne m ρ c main_arg4 (by decide)).trans <|
    (arg4_at1 m ρ c)
theorem arg5_at5 : W5 m ρ c (Proc.devRef .tc main_arg5) = (m ((c.tc : Thread nD τ).loc main_arg5)) :=
    (W5_of_ne m ρ c main_arg5 (by decide)).trans <|
    (W4_of_ne m ρ c main_arg5 (by decide)).trans <|
    (show StableHlo.after hostOps1 (W2 m ρ c) (Proc.devRef .tc main_arg5) = W2 m ρ c (Proc.devRef .tc main_arg5) from StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (W2_of_ne m ρ c main_arg5 (by decide)).trans <|
    (arg5_at1 m ρ c)
theorem sources_at5 : W5 m ρ c (Proc.devRef .tc main_v3) = Cert.ReferenceIdeal.Read.val_main_v3 (F := Ideal) (m ((c.tc : Thread nD τ).loc main_arg1)) :=
    (W5_of_ne m ρ c main_v3 (by decide)).trans <|
    (W4_of_ne m ρ c main_v3 (by decide)).trans <|
    (show StableHlo.after hostOps1 (W2 m ρ c) (Proc.devRef .tc main_v3) = W2 m ρ c (Proc.devRef .tc main_v3) from StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (sources_at2 m ρ c)
theorem targets_at5 : W5 m ρ c (Proc.devRef .tc main_v6) = Cert.ReferenceIdeal.Read.val_main_v6 (F := Ideal) (m ((c.tc : Thread nD τ).loc main_arg1)) :=
    (W5_of_ne m ρ c main_v6 (by decide)).trans <|
    (W4_of_ne m ρ c main_v6 (by decide)).trans <|
    (show StableHlo.after hostOps1 (W2 m ρ c) (Proc.devRef .tc main_v6) = W2 m ρ c (Proc.devRef .tc main_v6) from StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (targets_at2 m ρ c)
theorem norm_at5 : W5 m ρ c (Proc.devRef .tc main_v28) = Cert.ReferenceIdeal.Read.val_main_v29 (F := Ideal) (m ((c.tc : Thread nD τ).loc main_arg1)) :=
    (W5_of_ne m ρ c main_v28 (by decide)).trans <|
    (W4_of_ne m ρ c main_v28 (by decide)).trans <|
    (show StableHlo.after hostOps1 (W2 m ρ c) (Proc.devRef .tc main_v28) = W2 m ρ c (Proc.devRef .tc main_v28) from StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (norm_at2 m ρ c)
theorem arg6_at7 : W7 m ρ c (Proc.devRef .tc main_arg6) = (m ((c.tc : Thread nD τ).loc main_arg6)) :=
    (W7_of_ne m ρ c main_arg6 (by decide)).trans <|
    (show StableHlo.after hostOps3 (W5 m ρ c) (Proc.devRef .tc main_arg6) = W5 m ρ c (Proc.devRef .tc main_arg6) from StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (W5_of_ne m ρ c main_arg6 (by decide)).trans <|
    (W4_of_ne m ρ c main_arg6 (by decide)).trans <|
    (show StableHlo.after hostOps1 (W2 m ρ c) (Proc.devRef .tc main_arg6) = W2 m ρ c (Proc.devRef .tc main_arg6) from StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (W2_of_ne m ρ c main_arg6 (by decide)).trans <|
    (arg6_at1 m ρ c)
theorem arg7_at8 : W8 m ρ c (Proc.devRef .tc main_arg7) = (m ((c.tc : Thread nD τ).loc main_arg7)) :=
    (W8_of_ne m ρ c main_arg7 (by decide)).trans <|
    (W7_of_ne m ρ c main_arg7 (by decide)).trans <|
    (show StableHlo.after hostOps3 (W5 m ρ c) (Proc.devRef .tc main_arg7) = W5 m ρ c (Proc.devRef .tc main_arg7) from StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (W5_of_ne m ρ c main_arg7 (by decide)).trans <|
    (W4_of_ne m ρ c main_arg7 (by decide)).trans <|
    (show StableHlo.after hostOps1 (W2 m ρ c) (Proc.devRef .tc main_arg7) = W2 m ρ c (Proc.devRef .tc main_arg7) from StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (W2_of_ne m ρ c main_arg7 (by decide)).trans <|
    (arg7_at1 m ρ c)
theorem sources_at8 : W8 m ρ c (Proc.devRef .tc main_v3) = Cert.ReferenceIdeal.Read.val_main_v3 (F := Ideal) (m ((c.tc : Thread nD τ).loc main_arg1)) :=
    (W8_of_ne m ρ c main_v3 (by decide)).trans <|
    (W7_of_ne m ρ c main_v3 (by decide)).trans <|
    (show StableHlo.after hostOps3 (W5 m ρ c) (Proc.devRef .tc main_v3) = W5 m ρ c (Proc.devRef .tc main_v3) from StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (sources_at5 m ρ c)
theorem targets_at8 : W8 m ρ c (Proc.devRef .tc main_v6) = Cert.ReferenceIdeal.Read.val_main_v6 (F := Ideal) (m ((c.tc : Thread nD τ).loc main_arg1)) :=
    (W8_of_ne m ρ c main_v6 (by decide)).trans <|
    (W7_of_ne m ρ c main_v6 (by decide)).trans <|
    (show StableHlo.after hostOps3 (W5 m ρ c) (Proc.devRef .tc main_v6) = W5 m ρ c (Proc.devRef .tc main_v6) from StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (targets_at5 m ρ c)
theorem norm_at8 : W8 m ρ c (Proc.devRef .tc main_v28) = Cert.ReferenceIdeal.Read.val_main_v29 (F := Ideal) (m ((c.tc : Thread nD τ).loc main_arg1)) :=
    (W8_of_ne m ρ c main_v28 (by decide)).trans <|
    (W7_of_ne m ρ c main_v28 (by decide)).trans <|
    (show StableHlo.after hostOps3 (W5 m ρ c) (Proc.devRef .tc main_v28) = W5 m ρ c (Proc.devRef .tc main_v28) from StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans <|
    (norm_at5 m ρ c)

/-- A bias vector laid out as one row and read back along the row is the vector. -/
theorem row_of_vector {b : ℕ} (β : (⟨1, ![b]⟩ : Shape).Idx → EReal) (h : (⟨1, ![b]⟩ : Shape).ShapeCasts ⟨2, ![1, b]⟩) :
    (fun i : (⟨1, ![b]⟩ : Shape).Idx => shapeCast ⟨2, ![1, b]⟩ β h (ix2 (0 : Fin 1) (⟨(i 0).val, (i 0).isLt⟩ : Fin b))) = β :=
  funext fun i => (shapeCast_a_1a_apply β h 0 _).trans (congrArg β (eq_ix1 i).symm)

/-! ### Layer 1 -/

theorem transformed1 : W2 m ρ c (Proc.devRef .tc main_v29) = Cert.ReferenceIdeal.Read.val_main_v7 (F := Ideal) (m ((c.tc : Thread nD τ).loc main_arg0)) (m ((c.tc : Thread nD τ).loc main_arg2)) :=
  (W2_arr m ρ c 2).trans <| (Product0.final (V1 m ρ) c).trans <| by
    show Spec.mm (n := 50000) (k := 128) (b := 128) (W1 m ρ c (Proc.devRef .tc main_arg0)) (W1 m ρ c (Proc.devRef .tc main_arg2)) = _
    rw [arg0_at1 m ρ c, arg2_at1 m ρ c]
    exact (Cert.ReferenceIdeal.Stages.product_layer1 _ _).symm

theorem aggregated1 : W3 m ρ c (Proc.devRef .tc main_v42) = Cert.ReferenceIdeal.Read.val_main_v42 (F := Ideal) (m ((c.tc : Thread nD τ).loc main_arg0)) (m ((c.tc : Thread nD τ).loc main_arg1)) (m ((c.tc : Thread nD τ).loc main_arg2)) :=
  aggregate_layer1 (W2 m ρ c) _ _ _ (transformed1 m ρ c) (sources_at2 m ρ c) (targets_at2 m ρ c) (norm_at2 m ρ c)

theorem biasRow1 : W3 m ρ c (Proc.devRef .tc main_v43) = shapeCast S1x128 (m ((c.tc : Thread nD τ).loc main_arg3)) shapeCasts_S128_S1x128 :=
  (biasRow_layer1 (W2 m ρ c)).trans (by rw [arg3_at2 m ρ c])

theorem activated1 : W4 m ρ c (Proc.devRef .tc main_v44) = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) :=
  (W4_arr m ρ c 2).trans <| (Clip1.final (V3 m ρ) c).trans <| by
    show Spec.biasRelu (n := 50000) (b := 128) (W3 m ρ c (Proc.devRef .tc main_v42))
      (fun i => W3 m ρ c (Proc.devRef .tc main_v43) (ix2 (0 : Fin 1) (⟨(i 0).val, (i 0).isLt⟩ : Fin 128))) = _
    rw [aggregated1 m ρ c, biasRow1 m ρ c, row_of_vector]
    exact (Cert.ReferenceIdeal.Stages.clip_layer1 _ _ _ _).symm

/-! ### Layer 2 -/

theorem transformed2 : W5 m ρ c (Proc.devRef .tc main_v45) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W5_arr m ρ c 2).trans <| (Product2.final (V4 m ρ) c).trans <| by
    show Spec.mm (n := 50000) (k := 128) (b := 128) (W4 m ρ c (Proc.devRef .tc main_v44)) (W4 m ρ c (Proc.devRef .tc main_arg4)) = _
    rw [activated1 m ρ c, arg4_at4 m ρ c]
    exact (Cert.ReferenceIdeal.Stages.product_layer2 _ _ _ _ _).symm

theorem aggregated2 : W6 m ρ c (Proc.devRef .tc main_v58) = Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  aggregate_layer2 (W5 m ρ c) _ _ _ _ _ (transformed2 m ρ c) (sources_at5 m ρ c) (targets_at5 m ρ c) (norm_at5 m ρ c)

theorem biasRow2 : W6 m ρ c (Proc.devRef .tc main_v59) = shapeCast S1x128 (m ((c.tc : Thread nD τ).loc main_arg5)) shapeCasts_S128_S1x128 :=
  (biasRow_layer2 (W5 m ρ c)).trans (by rw [arg5_at5 m ρ c])

theorem activated2 : W7 m ρ c (Proc.devRef .tc main_v60) = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W7_arr m ρ c 2).trans <| (Clip3.final (V6 m ρ) c).trans <| by
    show Spec.biasRelu (n := 50000) (b := 128) (W6 m ρ c (Proc.devRef .tc main_v58))
      (fun i => W6 m ρ c (Proc.devRef .tc main_v59) (ix2 (0 : Fin 1) (⟨(i 0).val, (i 0).isLt⟩ : Fin 128))) = _
    rw [aggregated2 m ρ c, biasRow2 m ρ c, row_of_vector]
    exact (Cert.ReferenceIdeal.Stages.clip_layer2 _ _ _ _ _ _).symm

/-! ### Layer 3 -/

theorem transformed3 : W8 m ρ c (Proc.devRef .tc main_v61) = Cert.ReferenceIdeal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W8_arr m ρ c 2).trans <| (Product4.final (V7 m ρ) c).trans <| by
    show Spec.mm (n := 50000) (k := 128) (b := 2) (W7 m ρ c (Proc.devRef .tc main_v60)) (W7 m ρ c (Proc.devRef .tc main_arg6)) = _
    rw [activated2 m ρ c, arg6_at7 m ρ c]
    exact (Cert.ReferenceIdeal.Stages.product_layer3 _ _ _ _ _ _ _).symm

theorem aggregated3 : W9 m ρ c (Proc.devRef .tc main_v74) = Cert.ReferenceIdeal.Read.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  aggregate_layer3 (W8 m ρ c) _ _ _ _ _ _ _ (transformed3 m ρ c) (sources_at8 m ρ c) (targets_at8 m ρ c) (norm_at8 m ρ c)

theorem biasRow3 : W9 m ρ c (Proc.devRef .tc main_v75) = shapeCast S1x2 (m ((c.tc : Thread nD τ).loc main_arg7)) shapeCasts_S2_S1x2 :=
  (biasRow_layer3 (W8 m ρ c)).trans (by rw [arg7_at8 m ρ c])

/-- The result array after the last call is the reference's value of the argument arrays. -/
theorem result : W10 m ρ c (Proc.devRef .tc main_v76) = Cert.ReferenceIdeal.Read.val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W10_arr m ρ c 2).trans <| (LogSoftmax5.final (V9 m ρ) c).trans <| by
    show Spec.biasLogSoftmax (n := 50000) (b := 2) (W9 m ρ c (Proc.devRef .tc main_v74))
      (fun i => W9 m ρ c (Proc.devRef .tc main_v75) (ix2 (0 : Fin 1) (⟨(i 0).val, (i 0).isLt⟩ : Fin 2))) = _
    rw [aggregated3 m ρ c, biasRow3 m ρ c, row_of_vector]
    exact (Cert.ReferenceIdeal.Stages.logSoftmax_layer3 _ _ _ _ _ _ _ _).symm

end Walk

end Cert.KernelIdeal.Chain

end
-- ==== Proof.lean ====
/-
  Three-layer graph convolution: the kernel program and its reference compute one function on the extended reals.

  Both programs add a self-loop to every node, normalise every edge by the inverse square roots of its endpoints'
  degrees, and apply three layers "transform the features by a weight matrix, sum the scaled transformed rows of each
  node's in-neighbours, add a bias"; the first two layers end in a rectifier, the last in a row-wise log-softmax.  The
  kernel program runs each feature transform and each bias stage as a pipelined call over ten blocks of 5000 rows and
  leaves the edge-indexed gather and scatter-add to the host; the reference runs everything on the host.

  On the extended reals the matrix unit's block product (bfloat16 narrowing being the identity there) and the host's
  contraction are the same finite sums, row block by row block; the bias stages are entrywise or row-wise, so the blocks
  of their results are the blocks of the whole-array results; and the host's gather and scatter-add stretches are
  literally the reference's operations, applied to equal arrays.  No step moves a factor across a sum or cancels
  anything, so no finiteness of the inputs is used.

  The frames of the two kernel programs are the generated ones; the reference's frame is its generated run with the
  result forgotten; the idealization rewrote nothing, so there is nothing to preserve.
-/
import proofs.«172482_j78709570666802_1_alg».proof.Defs
import proofs.«172482_j78709570666802_1_alg».proof.Proof.Gen.Kernel
import proofs.«172482_j78709570666802_1_alg».proof.Proof.Gen.Kernel.Skeleton
import proofs.«172482_j78709570666802_1_alg».proof.Proof.Gen.Kernel.Launch
import proofs.«172482_j78709570666802_1_alg».proof.Proof.Gen.Kernel.Points
import proofs.«172482_j78709570666802_1_alg».proof.Proof.Gen.Kernel.Frame
import proofs.«172482_j78709570666802_1_alg».proof.Proof.Gen.KernelIdeal
import proofs.«172482_j78709570666802_1_alg».proof.Proof.Gen.KernelIdeal.Skeleton
import proofs.«172482_j78709570666802_1_alg».proof.Proof.Gen.KernelIdeal.Launch
import proofs.«172482_j78709570666802_1_alg».proof.Proof.Gen.KernelIdeal.Points
import proofs.«172482_j78709570666802_1_alg».proof.Proof.Gen.KernelIdeal.Frame
import proofs.«172482_j78709570666802_1_alg».proof.Proof.Gen.ReferenceIdeal
import proofs.«172482_j78709570666802_1_alg».proof.Proof.Gen.Pre_finite_inputs
import proofs.«172482_j78709570666802_1_alg».proof.Proof.RefRun
import proofs.«172482_j78709570666802_1_alg».proof.Proof.RefRead
import proofs.«172482_j78709570666802_1_alg».proof.Proof.KernelRun
import proofs.«172482_j78709570666802_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result: the reference's value of the
    argument arrays. -/
theorem algebraic : Cert.algebraic_KernelIdeal_ReferenceIdeal := by
  intro m ρ m' ρ' _ hagree
  refine ⟨fun c => Cert.ReferenceIdeal.Read.val_main_v126 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.RunValue.run_named m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v126_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
